-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S1x128 : Shape := ⟨2, ![1, 128]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩
abbrev S1x64 : Shape := ⟨2, ![1, 64]⟩
abbrev S4000 : Shape := ⟨1, ![4000]⟩

abbrev nBuf : Space → Nat
  | .hbm => 60
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x128, .f32⟩
  | .hbm, ⟨39, _⟩ => ⟨S128x128, .f32⟩
  | .hbm, ⟨40, _⟩ => ⟨S128x64, .f32⟩
  | .hbm, ⟨41, _⟩ => ⟨S128x64, .f32⟩
  | .hbm, ⟨42, _⟩ => ⟨S1x128, .f32⟩
  | .hbm, ⟨43, _⟩ => ⟨S100000x128, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x64, .f32⟩
  | .local _ .vmem, ⟨10, _⟩ => ⟨S4000x128, .f32⟩
  | .local _ .vmem, ⟨11, _⟩ => ⟨S4000x128, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S128x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  transposes_S64x128_S128x64_1_0 : S64x128.Transposes [1, 0] S128x64
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S100000x64.size a
  hwx0_8 : ∀ i : grid0.Coords, EltTy.bits .f32 = 32 ∨ (Rect.block (s := S100000x64) S4000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_1) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v38) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result array named.

  @main is four segments: the host operations before the first pallas_call (the index arrays, the degree and its
  reciprocal, the first neighbour sum, the transposed weights), the first call (hidden layer and its projection, 25 row
  blocks), the host operations between the calls (the neighbour sum of the projection), and the second call (logits and
  log-softmax, 25 row blocks). The launch over these segments ends with every buffer outside the kernels' scratch at
  the contents `Gen.W4`, the fold of the four segments from the launch memory; here that fact is kept for the result
  buffer as well as for the eight arguments.
-/
import proofs.«102721_j79405355368448_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the eight argument arrays as launched. -/
theorem run_named : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer is the second call's output window, so its final contents are what that call's write-backs leave. -/
theorem W4_result (c : Dev nD) : W4 m ρ c (Proc.devRef .tc main_v40) = (dat1 (V3 m ρ) c).arrAt 5 cfg1.N :=
  W4_arr m ρ c 5

end Cert.KernelIdeal.RunNamed

end
-- ==== Proof.Spec.lean ====
/-
  The two-layer mean-aggregation network as explicit formulas on the extended reals, index by index, once in
  the arrangement the kernel computes it and once in the reference's.

  Notation. `x` is the node-feature array [N, 128] (N = 100000); `dmax r` is max(deg r, 1), the clipped in-degree
  of node r; `agg128 f` and `agg64 f` are the un-normalised neighbour sums of an array `f` of width 128 or 64
  (row r of the result is the sum of the rows `f (src e)` over the edges e whose destination is r); the weights are
  given untransposed, `tr w` is the transpose, and a bias vector is read as a one-row array by `asRow`.

  Kernel's arrangement.   h = relu((agg128 x · 1/dmax) · W1lᵀ + x · W1rᵀ + b1),  p = h · W2lᵀ,
                          out = logsoftmax(agg64 p · 1/dmax + h · W2rᵀ + b2).
  Reference's arrangement. h = relu((agg128 x / dmax) · W1lᵀ + b1 + x · W1rᵀ),
                          out = logsoftmax((agg128 h / dmax) · W2lᵀ + b2 + h · W2rᵀ).
  The second layer differs by pushing the product with W2lᵀ through the neighbour sum, which is linear.
-/
import Idealize.ShloMosaic.PureOps.Ideal
import Idealize.ShloMosaic.Lib.ValueIdx

noncomputable section

namespace Cert.Sage

open Idealize.ShloMosaic Idealize.ShloMosaic.ValueIdx

/-- A rank-2 array of extended reals with literal extents. -/
abbrev Arr (n m : Nat) : Type := (⟨2, ![n, m]⟩ : Shape).Idx → EReal
/-- A rank-1 array of extended reals. -/
abbrev Vec1 (n : Nat) : Type := (⟨1, ![n]⟩ : Shape).Idx → EReal

/-- The three float constants of the two programs, kept as their binary words. -/
abbrev zeroF : EReal := Ideal.ofBits .f32 0x00000000#32
abbrev oneF : EReal := Ideal.ofBits .f32 0x3F800000#32
abbrev negInfF : EReal := Ideal.ofBits .f32 0xFF800000#32

/-- The transpose of a matrix. -/
def tr {a b : Nat} (w : Arr a b) : Arr b a := fun i => w (ix2 (i 1) (i 0))
/-- A vector read as a one-row matrix. -/
def asRow {n : Nat} (b : Vec1 n) : Arr 1 n := fun i => b (ix1 (i 1))

/-! ## The kernel's arrangement, one entry at a time (over any number of rows: a block's or the array's) -/

/-- Entry (r, c) of the hidden layer: relu of (aggregate row scaled by the reciprocal degree) · wl + x row · wr + bias. -/
def hiddenAt {n : Nat} (agg x : Arr n 128) (inv : Arr n 1) (wl wr : Arr 128 128) (b : Arr 1 128) (r : Fin n) (c : Fin 128) : EReal :=
  max (((∑ k : Fin 128, (agg (ix2 r k) * inv (ix2 r 0)) * wl (ix2 k c)) + ∑ k : Fin 128, x (ix2 r k) * wr (ix2 k c)) + b (ix2 0 c)) zeroF

/-- Entry (r, c) of the projected hidden layer h · w. -/
def projAt {n : Nat} (h : Arr n 128) (w : Arr 128 64) (r : Fin n) (c : Fin 64) : EReal :=
  ∑ k : Fin 128, h (ix2 r k) * w (ix2 k c)

/-- Entry (r, c) of the second layer before the softmax: scaled aggregate of the projection + h row · wr + bias. -/
def logitAt {n : Nat} (aggp : Arr n 64) (h : Arr n 128) (inv : Arr n 1) (wr : Arr 128 64) (b : Arr 1 64) (r : Fin n) (c : Fin 64) : EReal :=
  (aggp (ix2 r c) * inv (ix2 r 0) + ∑ k : Fin 128, h (ix2 r k) * wr (ix2 k c)) + b (ix2 0 c)

/-- The log-softmax of one row of 64 logits, at entry c: (z c − M) − log Σ exp(z c' − M), M the row's maximum. -/
def lsmAt (z : Fin 64 → EReal) (c : Fin 64) : EReal :=
  (z c - Finset.univ.fold max negInfF z) - Ideal.log (∑ c' : Fin 64, Ideal.exp (z c' - Finset.univ.fold max negInfF z))

/-! ## The reference's arrangement, one entry at a time -/

/-- Entry (r, c) of the reference's hidden layer: the aggregate row DIVIDED by the clipped degree, bias before the x term. -/
def rHiddenAt (agg x : Arr 100000 128) (dmax : Vec1 100000) (wl wr : Arr 128 128) (b : Vec1 128) (r : Fin 100000) (c : Fin 128) : EReal :=
  max (((∑ k : Fin 128, Ideal.div (agg (ix2 r k)) (dmax (ix1 r)) * wl (ix2 k c)) + b (ix1 c)) + ∑ k : Fin 128, x (ix2 r k) * wr (ix2 k c)) zeroF

/-- Entry (r, c) of the reference's second layer before the softmax. -/
def rLogitAt (agg h : Arr 100000 128) (dmax : Vec1 100000) (wl wr : Arr 128 64) (b : Vec1 64) (r : Fin 100000) (c : Fin 64) : EReal :=
  ((∑ k : Fin 128, Ideal.div (agg (ix2 r k)) (dmax (ix1 r)) * wl (ix2 k c)) + b (ix1 c)) + ∑ k : Fin 128, h (ix2 r k) * wr (ix2 k c)

/-- The reference's log-softmax of one row: its maximum is taken once more against −∞, and its sum starts from 0. -/
def rLsmAt (z : Fin 64 → EReal) (c : Fin 64) : EReal :=
  (z c - max negInfF (Finset.univ.fold max negInfF z))
    - Ideal.log (zeroF + ∑ c' : Fin 64, Ideal.exp (z c' - max negInfF (Finset.univ.fold max negInfF z)))

/-! ## The whole arrays -/

section Whole

variable (x : Arr 100000 128) (dmax : Vec1 100000)
  (agg128 : Arr 100000 128 → Arr 100000 128) (agg64 : Arr 100000 64 → Arr 100000 64)
  (w1l w1r : Arr 128 128) (b1 : Vec1 128) (w2l w2r : Arr 64 128) (b2 : Vec1 64)

/-- The reciprocal of the clipped degree, as a column. -/
def invOf : Arr 100000 1 := fun i => Ideal.div oneF (dmax (ix1 (i 0)))

/-- The kernel's hidden layer. -/
def kH : Arr 100000 128 := fun i => hiddenAt (agg128 x) x (invOf dmax) (tr w1l) (tr w1r) (asRow b1) (i 0) (i 1)
/-- The kernel's projected hidden layer. -/
def kP : Arr 100000 64 := fun i => projAt (kH x dmax agg128 w1l w1r b1) (tr w2l) (i 0) (i 1)
/-- The kernel's result. -/
def kOut : Arr 100000 64 := fun i =>
  lsmAt (fun c => logitAt (agg64 (kP x dmax agg128 w1l w1r b1 w2l)) (kH x dmax agg128 w1l w1r b1) (invOf dmax) (tr w2r) (asRow b2) (i 0) c) (i 1)

/-- The reference's hidden layer. -/
def rH : Arr 100000 128 := fun i => rHiddenAt (agg128 x) x dmax (tr w1l) (tr w1r) b1 (i 0) (i 1)
/-- The reference's result. -/
def rOut : Arr 100000 64 := fun i =>
  rLsmAt (fun c => rLogitAt (agg128 (rH x dmax agg128 w1l w1r b1)) (rH x dmax agg128 w1l w1r b1) dmax (tr w2l) (tr w2r) b2 (i 0) c) (i 1)

end Whole

end Cert.Sage

end
-- ==== Proof.KernelPayload.lean ====
/-
  The arithmetic of the two kernel bodies, read one entry at a time.

  A body works on a block of 4000 rows. The first body's two stored values are, at row p of the block,
  relu((agg row · 1/deg) · Wl + x row · Wr + b) and that hidden row times W2l; the second body's stored value is the
  log-softmax of (aggp row · 1/deg + h row · Wr + b). Each matrix product from a zero accumulator is a sum over the 128
  contracted coordinates, a column [4000, 1] broadcast along a row repeats its entry, and the row maximum and row sum
  of the softmax run over the 64 columns.
-/
import proofs.«102721_j79405355368448_2_alg».proof.Proof.Gen.KernelIdeal.Skeleton
import proofs.«102721_j79405355368448_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.Sage
open Idealize.ShloMosaic Idealize.ShloMosaic.ValueIdx

variable {α : Type}

/-! ## Layout steps -/

/-- A column [a, 1] broadcast to [a, b] reads, at (p, c), the column's entry of row p. -/
theorem bcastCol_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (p, u), entry p. -/
theorem castCol_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-! ## The matrix products as sums over the contracted coordinate -/

abbrev D128 := dot_S4000x128_S128x128_S4000x128_1_0_0_1_n_n
abbrev D64 := dot_S4000x128_S128x64_S4000x64_1_0_0_1_n_n

theorem lhs128_0 (i : S4000x128.Idx) (q : D128.contr.Idx) : (D128.lhsIdx i q 0).val = (i 0).val := by
  unfold DotDims.lhsIdx
  rw [dif_neg (show ¬(0 : Fin S4000x128.rank) ∈ D128.lhsBatch by decide), dif_pos (show (0 : Fin S4000x128.rank) ∈ D128.lhsNonContracting by decide)]
  rfl
theorem rhs128_1 (i : S4000x128.Idx) (q : D128.contr.Idx) : (D128.rhsIdx i q 1).val = (i 1).val := by
  unfold DotDims.rhsIdx
  rw [dif_neg (show ¬(1 : Fin S128x128.rank) ∈ D128.rhsBatch by decide), dif_pos (show (1 : Fin S128x128.rank) ∈ D128.rhsNonContracting by decide)]
  rfl
theorem lhs64_0 (i : S4000x64.Idx) (q : D64.contr.Idx) : (D64.lhsIdx i q 0).val = (i 0).val := by
  unfold DotDims.lhsIdx
  rw [dif_neg (show ¬(0 : Fin S4000x128.rank) ∈ D64.lhsBatch by decide), dif_pos (show (0 : Fin S4000x128.rank) ∈ D64.lhsNonContracting by decide)]
  rfl
theorem rhs64_1 (i : S4000x64.Idx) (q : D64.contr.Idx) : (D64.rhsIdx i q 1).val = (i 1).val := by
  unfold DotDims.rhsIdx
  rw [dif_neg (show ¬(1 : Fin S128x64.rank) ∈ D64.rhsBatch by decide), dif_pos (show (1 : Fin S128x64.rank) ∈ D64.rhsNonContracting by decide)]
  rfl

/-- A [4000, 128] × [128, 128] product from the zero accumulator, at (p, c): the sum over k of lhs(p, k) · rhs(k, c). -/
theorem matmul128_apply (lhs : FVec Ideal S4000x128 .bf16) (rhs : FVec Ideal S128x128 .bf16) (p : Fin 4000) (c : Fin 128) :
    matmul D128 none lhs rhs (constant (F := Ideal) S4000x128 .f32 0x00000000#32) (ix2 p c)
      = ∑ k : Fin 128, lhs (ix2 p k) * rhs (ix2 k c) := by
  refine (Ideal.matmul_constant_zero_apply D128 none lhs rhs (ix2 p c)).trans ?_
  rw [← Equiv.sum_comp (contrEquiv1 D128 128 rfl rfl).symm]
  refine Finset.sum_congr rfl fun k _ => ?_
  have hk := contrEquiv1_symm_val D128 128 rfl rfl k
  have el : D128.lhsIdx (ix2 p c) ((contrEquiv1 D128 128 rfl rfl).symm k) = ix2 p k := funext fun a => Fin.ext (by
    match a with
    | ⟨0, _⟩ => exact lhs128_0 _ _
    | ⟨1, _⟩ => exact (D128.lhsIdx_val_of_single rfl _ _).trans hk)
  have er : D128.rhsIdx (ix2 p c) ((contrEquiv1 D128 128 rfl rfl).symm k) = ix2 k c := funext fun a => Fin.ext (by
    match a with
    | ⟨0, _⟩ => exact (D128.rhsIdx_val_of_single rfl _ _).trans hk
    | ⟨1, _⟩ => exact rhs128_1 _ _)
  rw [el, er]

/-- A [4000, 128] × [128, 64] product from the zero accumulator, at (p, c). -/
theorem matmul64_apply (lhs : FVec Ideal S4000x128 .bf16) (rhs : FVec Ideal S128x64 .bf16) (p : Fin 4000) (c : Fin 64) :
    matmul D64 none lhs rhs (constant (F := Ideal) S4000x64 .f32 0x00000000#32) (ix2 p c)
      = ∑ k : Fin 128, lhs (ix2 p k) * rhs (ix2 k c) := by
  refine (Ideal.matmul_constant_zero_apply D64 none lhs rhs (ix2 p c)).trans ?_
  rw [← Equiv.sum_comp (contrEquiv1 D64 128 rfl rfl).symm]
  refine Finset.sum_congr rfl fun k _ => ?_
  have hk := contrEquiv1_symm_val D64 128 rfl rfl k
  have el : D64.lhsIdx (ix2 p c) ((contrEquiv1 D64 128 rfl rfl).symm k) = ix2 p k := funext fun a => Fin.ext (by
    match a with
    | ⟨0, _⟩ => exact lhs64_0 _ _
    | ⟨1, _⟩ => exact (D64.lhsIdx_val_of_single rfl _ _).trans hk)
  have er : D64.rhsIdx (ix2 p c) ((contrEquiv1 D64 128 rfl rfl).symm k) = ix2 k c := funext fun a => Fin.ext (by
    match a with
    | ⟨0, _⟩ => exact (D64.rhsIdx_val_of_single rfl _ _).trans hk
    | ⟨1, _⟩ => exact rhs64_1 _ _)
  rw [el, er]

/-! ## The first body's two stored values -/

/-- The hidden block at (p, c). -/
theorem pay0_1_apply (v0 : Vec Ideal S4000x1 .f32) (v2 v7 : Vec Ideal S4000x128 .f32) (v9 v12 : Vec Ideal S128x128 .f32)
    (v15 : Vec Ideal S1x128 .f32) (p : Fin 4000) (c : Fin 128) :
    k0_pay1 v0 v2 v7 v9 v12 v15 (ix2 p c) = hiddenAt v2 v7 v0 v9 v12 v15 p c := by
  unfold k0_pay1 hiddenAt
  simp only [shapeCast_self, maximumf_apply, addf_apply, mulf_apply, truncf_apply, broadcast_apply, matmul128_apply,
    bcastCol_apply, broadcastTo_1b_ab_apply]
  rfl

/-- The projected block at (p, c): the hidden block's row p times column c of the weight. -/
theorem pay0_2_apply (v0 : Vec Ideal S4000x1 .f32) (v2 v7 : Vec Ideal S4000x128 .f32) (v9 v12 : Vec Ideal S128x128 .f32)
    (v15 : Vec Ideal S1x128 .f32) (v25 : Vec Ideal S128x64 .f32) (p : Fin 4000) (c : Fin 64) :
    k0_pay2 v0 v2 v7 v9 v12 v15 v25 (ix2 p c) = projAt (k0_pay1 v0 v2 v7 v9 v12 v15) v25 p c := by
  unfold k0_pay2 projAt
  simp only [shapeCast_self, truncf_apply, matmul64_apply]

/-! ## The second body's stored value -/

/-- Putting column k back into a row index p gives (p, k). -/
theorem lift_row (h : S4000x64.Reduces [1] S4000) (p : Fin 4000) (k : Fin (S4000x64.size 1)) :
    h.lift (ix1 p) k = ix2 p (⟨k.val, k.isLt⟩ : Fin 64) := by
  funext a; apply Fin.ext
  fin_cases a <;> rfl

/-- The maximum over the 64 columns, from −∞, at row p. -/
theorem rowMax_apply (src : FVec Ideal S4000x64 .f32) (hφ : FKind.Formats .f32)
    (hacc : (0xFF800000#32 : BitVec FTy.f32.bits) = FKind.maximumf.neutral .f32 hφ) (p : Fin 4000) :
    multiReduction .maximumf [1] S4000 src 0xFF800000#32 reduces_S4000x64_S4000 hφ hacc (ix1 p)
      = Finset.univ.fold max negInfF (fun c : Fin 64 => src (ix2 p c)) := by
  refine (Ideal.multiReduction_maximumf_single src 0xFF800000#32 reduces_S4000x64_S4000 hφ hacc (ix1 p)).trans ?_
  have hf : (src ∘ reduces_S4000x64_S4000.lift (ix1 p)) = fun k : Fin 64 => src (ix2 p k) :=
    funext fun k => congrArg src (lift_row _ p k)
  exact congrArg (fun f => Finset.fold max negInfF f (Finset.univ : Finset (Fin 64))) hf

/-- The sum over the 64 columns at row p. -/
theorem rowSum_apply (src : FVec Ideal S4000x64 .f32) (hφ : FKind.Formats .f32)
    (hacc : (0x00000000#32 : BitVec FTy.f32.bits) = FKind.add.neutral .f32 hφ) (p : Fin 4000) :
    multiReduction .add [1] S4000 src 0x00000000#32 reduces_S4000x64_S4000 hφ hacc (ix1 p)
      = ∑ c : Fin 64, src (ix2 p c) := by
  refine (Ideal.multiReduction_add_single src 0x00000000#32 reduces_S4000x64_S4000 hφ hacc (ix1 p)).trans ?_
  exact Finset.sum_congr rfl fun k _ => congrArg src (lift_row _ p k)

theorem exp_apply {s : Shape} (x : FVec Ideal s .f32) (i : s.Idx) : exp x i = Ideal.exp (x i) := rfl
theorem log_apply {s : Shape} (x : FVec Ideal s .f32) (i : s.Idx) : log x i = Ideal.log (x i) := rfl

/-- The softmax steps of the body applied to any block `Z` of logits, at (p, c): the log-softmax of row p of `Z`. -/
theorem lsm_block_apply (Z : FVec Ideal S4000x64 .f32) (hφ : FKind.Formats .f32)
    (hm : (0xFF800000#32 : BitVec FTy.f32.bits) = FKind.maximumf.neutral .f32 hφ)
    (ha : (0x00000000#32 : BitVec FTy.f32.bits) = FKind.add.neutral .f32 hφ) (p : Fin 4000) (c : Fin 64) :
    subf (subf Z (broadcastTo S4000x64 (shapeCast S4000x1 (multiReduction .maximumf [1] S4000 Z 0xFF800000#32 reduces_S4000x64_S4000 hφ hm) shapeCasts_S4000_S4000x1) broadcasts_S4000x1_S4000x64))
      (broadcastTo S4000x64 (log (shapeCast S4000x1 (multiReduction .add [1] S4000
        (exp (subf Z (broadcastTo S4000x64 (shapeCast S4000x1 (multiReduction .maximumf [1] S4000 Z 0xFF800000#32 reduces_S4000x64_S4000 hφ hm) shapeCasts_S4000_S4000x1) broadcasts_S4000x1_S4000x64)))
        0x00000000#32 reduces_S4000x64_S4000 hφ ha) shapeCasts_S4000_S4000x1)) broadcasts_S4000x1_S4000x64) (ix2 p c)
      = lsmAt (fun c' => Z (ix2 p c')) c := by
  unfold lsmAt
  rw [subf_apply, subf_apply, bcastCol_apply, bcastCol_apply, log_apply, castCol_apply, castCol_apply, rowMax_apply Z hφ hm p,
    rowSum_apply _ hφ ha p]
  refine congrArg (fun s => Z (ix2 p c) - Finset.univ.fold max negInfF (fun c' : Fin 64 => Z (ix2 p c')) - Ideal.log s) ?_
  refine Finset.sum_congr rfl fun k _ => ?_
  rw [exp_apply, subf_apply, bcastCol_apply, castCol_apply, rowMax_apply Z hφ hm p]

/-- The block of logits at (p, c). -/
theorem logit_block_apply (v0 : Vec Ideal S4000x1 .f32) (v2 : Vec Ideal S4000x64 .f32) (v6 : Vec Ideal S4000x128 .f32)
    (v9 : Vec Ideal S128x64 .f32) (v12 : Vec Ideal S1x64 .f32) (p : Fin 4000) (c : Fin 64) :
    addf (addf (mulf (shapeCast S4000x64 v2 shapeCasts_S4000x64_S4000x64) (broadcastTo S4000x64 (shapeCast S4000x1 v0 shapeCasts_S4000x1_S4000x1) broadcasts_S4000x1_S4000x64))
        (matmul dot_S4000x128_S128x64_S4000x64_1_0_0_1_n_n none (truncf .bf16 (shapeCast S4000x128 v6 shapeCasts_S4000x128_S4000x128) bitsLt_bf16_f32)
          (truncf .bf16 (shapeCast S128x64 v9 shapeCasts_S128x64_S128x64) bitsLt_bf16_f32) (constant (F := Ideal) S4000x64 .f32 0x00000000#32)))
      (broadcastTo S4000x64 (shapeCast S1x64 v12 shapeCasts_S1x64_S1x64) broadcasts_S1x64_S4000x64) (ix2 p c)
      = logitAt v2 v6 v0 v9 v12 p c := by
  unfold logitAt
  simp only [shapeCast_self, addf_apply, mulf_apply, truncf_apply, matmul64_apply, bcastCol_apply, broadcastTo_1b_ab_apply]

/-- The stored block at (p, c): the log-softmax of row p of the logits. -/
theorem pay1_1_apply (v0 : Vec Ideal S4000x1 .f32) (v2 : Vec Ideal S4000x64 .f32) (v6 : Vec Ideal S4000x128 .f32)
    (v9 : Vec Ideal S128x64 .f32) (v12 : Vec Ideal S1x64 .f32) (p : Fin 4000) (c : Fin 64) :
    k1_pay1 v0 v2 v6 v9 v12 (ix2 p c) = lsmAt (fun c' => logitAt v2 v6 v0 v9 v12 p c') c := by
  unfold k1_pay1
  refine (lsm_block_apply _ _ _ _ p c).trans ?_
  exact congrArg (fun z => lsmAt z c) (funext fun c' => logit_block_apply v0 v2 v6 v9 v12 p c')

end Cert.KernelIdeal.Payload

end
-- ==== Proof.KernelBlocks0.lean ====
/-
  From blocks to arrays, first pallas_call: 25 grid points, point t working on rows [4000 t, 4000 t + 4000).

  The three row-blocked inputs (the neighbour sum, the features, the reciprocal degree) are read at row 4000 t + p for
  row p of the block, the four weight and bias windows are the whole arrays at every point, and each output block is
  written back to rows [4000 t, 4000 t + 4000) of its array; the 25 blocks tile the 100000 rows. So each output array
  ends as ONE function of the arrays the call was entered with: the hidden layer, and its projection.
-/
import proofs.«102721_j79405355368448_2_alg».proof.Proof.Gen.KernelIdeal.Frame
import proofs.«102721_j79405355368448_2_alg».proof.Proof.KernelPayload

set_option maxRecDepth 16384

noncomputable section

namespace Cert.KernelIdeal.Blocks0

open Cert.KernelIdeal Cert.KernelIdeal.Gen Cert.KernelIdeal.Payload Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: a row-blocked window's block index is (t, 0), a weight window's (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 25 := lt_of_lt_of_eq (show t.val < grid0.N from t.isLt) N_0

/-- Row 4000 t + p of a 100000-row array. -/
abbrev rowOf (t : Fin cfg0.N) (p : Fin 4000) : Fin 100000 := ⟨t.val * 4000 + p.val, by have := t_lt t; have := p.isLt; omega⟩

/-! ## The input blocks read off the entry arrays -/

theorem read0 (c : Dev nD) (t : Fin cfg0.N) (p : Fin 4000) (k : Fin 128) :
    iblk0 V c 0 t (ix2 p k) = V c main_v22 (ix2 (rowOf t p) k) := by
  show V c main_v22 (((cfg0.win 0).blk t).view.emb (ix2 p k)) = _
  refine congrArg (V c main_v22) (funext fun a => Fin.ext ?_)
  obtain ⟨e0, e1, -⟩ := idx0 t
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

theorem read1 (c : Dev nD) (t : Fin cfg0.N) (p : Fin 4000) (k : Fin 128) :
    iblk0 V c 1 t (ix2 p k) = V c main_arg0 (ix2 (rowOf t p) k) := by
  show V c main_arg0 (((cfg0.win 1).blk t).view.emb (ix2 p k)) = _
  refine congrArg (V c main_arg0) (funext fun a => Fin.ext ?_)
  obtain ⟨-, -, e0, e1, -⟩ := idx0 t
  match a with
  | ⟨0, _⟩ => show win0_1.index t (0 : Fin 2) * 4000 + 1 * p.val = t.val * 4000 + p.val; rw [e0]; omega
  | ⟨1, _⟩ => show win0_1.index t (1 : Fin 2) * 128 + 1 * k.val = k.val; rw [e1]; omega

theorem read2 (c : Dev nD) (t : Fin cfg0.N) (p : Fin 4000) (u : Fin 1) :
    iblk0 V c 2 t (ix2 p u) = V c main_v12 (ix2 (rowOf t p) u) := by
  show V c main_v12 (((cfg0.win 2).blk t).view.emb (ix2 p u)) = _
  refine congrArg (V c main_v12) (funext fun a => Fin.ext ?_)
  obtain ⟨-, -, -, -, e0, e1, -⟩ := idx0 t
  match a with
  | ⟨0, _⟩ => show win0_2.index t (0 : Fin 2) * 4000 + 1 * p.val = t.val * 4000 + p.val; rw [e0]; omega
  | ⟨1, _⟩ => show win0_2.index t (1 : Fin 2) * 1 + 1 * u.val = u.val; rw [e1]; omega

theorem read3 (c : Dev nD) (t : Fin cfg0.N) (k : Fin 128) (q : Fin 128) :
    iblk0 V c 3 t (ix2 k q) = V c main_v23 (ix2 k q) := by
  show V c main_v23 (((cfg0.win 3).blk t).view.emb (ix2 k q)) = _
  refine congrArg (V c main_v23) (funext fun a => Fin.ext ?_)
  obtain ⟨-, -, -, -, -, -, e0, e1, -⟩ := idx0 t
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem read4 (c : Dev nD) (t : Fin cfg0.N) (k : Fin 128) (q : Fin 128) :
    iblk0 V c 4 t (ix2 k q) = V c main_v24 (ix2 k q) := by
  show V c main_v24 (((cfg0.win 4).blk t).view.emb (ix2 k q)) = _
  refine congrArg (V c main_v24) (funext fun a => Fin.ext ?_)
  obtain ⟨-, -, -, -, -, -, -, -, e0, e1, -⟩ := idx0 t
  match a with
  | ⟨0, _⟩ => show win0_4.index t (0 : Fin 2) * 128 + 1 * k.val = k.val; rw [e0]; omega
  | ⟨1, _⟩ => show win0_4.index t (1 : Fin 2) * 128 + 1 * q.val = q.val; rw [e1]; omega

theorem read5 (c : Dev nD) (t : Fin cfg0.N) (u : Fin 1) (q : Fin 128) :
    iblk0 V c 5 t (ix2 u q) = V c main_v27 (ix2 u q) := by
  show V c main_v27 (((cfg0.win 5).blk t).view.emb (ix2 u q)) = _
  refine congrArg (V c main_v27) (funext fun a => Fin.ext ?_)
  obtain ⟨-, -, -, -, -, -, -, -, -, -, e0, e1, -⟩ := idx0 t
  match a with
  | ⟨0, _⟩ => show win0_5.index t (0 : Fin 2) * 1 + 1 * u.val = u.val; rw [e0]; omega
  | ⟨1, _⟩ => show win0_5.index t (1 : Fin 2) * 128 + 1 * q.val = q.val; rw [e1]; omega

theorem read6 (c : Dev nD) (t : Fin cfg0.N) (k : Fin 128) (q : Fin 64) :
    iblk0 V c 6 t (ix2 k q) = V c main_v25 (ix2 k q) := by
  show V c main_v25 (((cfg0.win 6).blk t).view.emb (ix2 k q)) = _
  refine congrArg (V c main_v25) (funext fun a => Fin.ext ?_)
  obtain ⟨-, -, -, -, -, -, -, -, -, -, -, -, e0, e1, -⟩ := idx0 t
  match a with
  | ⟨0, _⟩ => show win0_6.index t (0 : Fin 2) * 128 + 1 * k.val = k.val; rw [e0]; omega
  | ⟨1, _⟩ => show win0_6.index t (1 : Fin 2) * 64 + 1 * q.val = q.val; rw [e1]; omega

/-! ## The two output arrays as functions of the entry arrays -/

/-- The hidden layer over the whole array. -/
def H0 (c : Dev nD) : Arr 100000 128 := fun i =>
  hiddenAt (V c main_v22) (V c main_arg0) (V c main_v12) (V c main_v23) (V c main_v24) (V c main_v27) (i 0) (i 1)

/-- Its projection over the whole array. -/
def P0 (c : Dev nD) : Arr 100000 64 := fun i => projAt (H0 V c) (V c main_v25) (i 0) (i 1)

/-- Row p of the hidden block of point t is row 4000 t + p of the hidden layer. -/
theorem hblock (c : Dev nD) (t : Fin cfg0.N) (p : Fin 4000) (q : Fin 128) :
    k0_pay1 (iblk0 V c 2 t) (iblk0 V c 0 t) (iblk0 V c 1 t) (iblk0 V c 3 t) (iblk0 V c 4 t) (iblk0 V c 5 t) (ix2 p q)
      = H0 V c (ix2 (rowOf t p) q) := by
  rw [pay0_1_apply]
  show _ = hiddenAt (V c main_v22) (V c main_arg0) (V c main_v12) (V c main_v23) (V c main_v24) (V c main_v27) (rowOf t p) q
  unfold hiddenAt
  simp only [read0, read1, read2, read3, read4, read5]

/-- Entry (p, q) of output block t sits at row 4000 t + p. -/
theorem emb7 (t : Fin cfg0.N) (p : Fin 4000) (q : Fin 128) : ((cfg0.win 7).blk t).view.emb (ix2 p q) = ix2 (rowOf t p) q := by
  funext a; apply Fin.ext
  obtain ⟨-, -, -, -, -, -, -, -, -, -, -, -, -, -, e0, e1, -⟩ := idx0 t
  match a with
  | ⟨0, _⟩ => show win0_7.index t (0 : Fin 2) * 4000 + 1 * p.val = t.val * 4000 + p.val; rw [e0]; omega
  | ⟨1, _⟩ => show win0_7.index t (1 : Fin 2) * 128 + 1 * q.val = q.val; rw [e1]; omega

theorem emb8 (t : Fin cfg0.N) (p : Fin 4000) (q : Fin 64) : ((cfg0.win 8).blk t).view.emb (ix2 p q) = ix2 (rowOf t p) q := by
  funext a; apply Fin.ext
  obtain ⟨-, -, -, -, -, -, -, -, -, -, -, -, -, -, -, -, e0, e1⟩ := idx0 t
  match a with
  | ⟨0, _⟩ => show win0_8.index t (0 : Fin 2) * 4000 + 1 * p.val = t.val * 4000 + p.val; rw [e0]; omega
  | ⟨1, _⟩ => show win0_8.index t (1 : Fin 2) * 64 + 1 * q.val = q.val; rw [e1]; omega

/-- What point t writes back to the hidden array is block t of the hidden layer. -/
theorem flushed7 (c : Dev nD) (t : Fin cfg0.N) :
    (dat0 V c).flushed 7 t = ((cfg0.win 7).blk t).view.read (Elt Ideal) (H0 V c) := by
  show (cfg0.win 7).cut (grid0.coords t) ((dat0 V c).after 7 t) = _
  rw [after0_7]
  unfold out0_7
  rw [View.canon_unit_zero hz]
  simp only [View.ld_unit_zero (S := S4000x128) hz, View.ld_unit_zero (S := S4000x1) hz, View.ld_unit_zero (S := S128x128) hz,
    View.ld_unit_zero (S := S1x128) hz]
  funext j
  obtain ⟨p, q, rfl⟩ : ∃ (p : Fin 4000) (q : Fin 128), j = ix2 p q := ⟨j 0, j 1, eq_ix2 j⟩
  show _ = H0 V c (((cfg0.win 7).blk t).view.emb (ix2 p q))
  rw [emb7]
  exact hblock V c t p q

/-- What point t writes back to the projection array is block t of the projection. -/
theorem flushed8 (c : Dev nD) (t : Fin cfg0.N) :
    (dat0 V c).flushed 8 t = ((cfg0.win 8).blk t).view.read (Elt Ideal) (P0 V c) := by
  show (cfg0.win 8).cut (grid0.coords t) ((dat0 V c).after 8 t) = _
  rw [after0_8]
  unfold out0_8
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S128x64) hz, View.ld_unit_zero (S := S4000x64) hz]
  funext j
  obtain ⟨p, q, rfl⟩ : ∃ (p : Fin 4000) (q : Fin 64), j = ix2 p q := ⟨j 0, j 1, eq_ix2 j⟩
  show k0_pay2 (iblk0 V c 2 t) (iblk0 V c 0 t) (iblk0 V c 1 t) (iblk0 V c 3 t) (iblk0 V c 4 t) (iblk0 V c 5 t) (iblk0 V c 6 t) (ix2 p q)
    = P0 V c (((cfg0.win 8).blk t).view.emb (ix2 p q))
  rw [emb8, pay0_2_apply]
  show _ = projAt (H0 V c) (V c main_v25) (rowOf t p) q
  unfold projAt
  simp only [hblock, read6]

/-! ## The 25 blocks tile the 100000 rows -/

theorem mem_blk7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v28_0).slice (win0_7.rect t)).set ↔ _
  rw [View.set_slice_whole, Rect.mem_set_unit]
  exact Iff.rfl

theorem mem_blk8 (t : Fin cfg0.N) (i : S100000x64.Idx) :
    i ∈ ((cfg0.win 8).blk t).view.set ↔ ∀ a : Fin 2, win0_8.index t a * S4000x64.size a ≤ (i a).val ∧ (i a).val < win0_8.index t a * S4000x64.size a + S4000x64.size a := by
  show i ∈ ((View.whole main_v28_1).slice (win0_8.rect t)).set ↔ _
  rw [View.set_slice_whole, Rect.mem_set_unit]
  exact Iff.rfl

/-- The point whose block holds row r: r / 4000. -/
abbrev pointOf (r : Nat) (hr : r < 100000) : Fin cfg0.N := ⟨r / 4000, lt_of_lt_of_eq (show r / 4000 < 25 by omega) N_0.symm⟩

theorem cover7 (i : S100000x128.Idx) : ∃ t : Fin cfg0.N, (cfg0.win 7).flush t = true ∧ i ∈ ((cfg0.win 7).blk t).view.set := by
  have h0 : (i 0).val < 100000 := (i 0).isLt
  have h1 : (i 1).val < 128 := (i 1).isLt
  refine ⟨pointOf (i 0).val h0, flush0_7 _, ?_⟩
  rw [mem_blk7]
  obtain ⟨-, -, -, -, -, -, -, -, -, -, -, -, -, -, e0, e1, -⟩ := idx0 (pointOf (i 0).val h0)
  intro a
  match a with
  | ⟨0, _⟩ =>
    show win0_7.index (pointOf (i 0).val h0) (0 : Fin 2) * 4000 ≤ (i 0).val ∧ (i 0).val < win0_7.index (pointOf (i 0).val h0) (0 : Fin 2) * 4000 + 4000
    rw [e0]; show (i 0).val / 4000 * 4000 ≤ (i 0).val ∧ (i 0).val < (i 0).val / 4000 * 4000 + 4000; omega
  | ⟨1, _⟩ =>
    show win0_7.index (pointOf (i 0).val h0) (1 : Fin 2) * 128 ≤ (i 1).val ∧ (i 1).val < win0_7.index (pointOf (i 0).val h0) (1 : Fin 2) * 128 + 128
    rw [e1]; omega

theorem cover8 (i : S100000x64.Idx) : ∃ t : Fin cfg0.N, (cfg0.win 8).flush t = true ∧ i ∈ ((cfg0.win 8).blk t).view.set := by
  have h0 : (i 0).val < 100000 := (i 0).isLt
  have h1 : (i 1).val < 64 := (i 1).isLt
  refine ⟨pointOf (i 0).val h0, flush0_8 _, ?_⟩
  rw [mem_blk8]
  obtain ⟨-, -, -, -, -, -, -, -, -, -, -, -, -, -, -, -, e0, e1⟩ := idx0 (pointOf (i 0).val h0)
  intro a
  match a with
  | ⟨0, _⟩ =>
    show win0_8.index (pointOf (i 0).val h0) (0 : Fin 2) * 4000 ≤ (i 0).val ∧ (i 0).val < win0_8.index (pointOf (i 0).val h0) (0 : Fin 2) * 4000 + 4000
    rw [e0]; show (i 0).val / 4000 * 4000 ≤ (i 0).val ∧ (i 0).val < (i 0).val / 4000 * 4000 + 4000; omega
  | ⟨1, _⟩ =>
    show win0_8.index (pointOf (i 0).val h0) (1 : Fin 2) * 64 ≤ (i 1).val ∧ (i 1).val < win0_8.index (pointOf (i 0).val h0) (1 : Fin 2) * 64 + 64
    rw [e1]; omega

/-- After the first call the hidden array holds the hidden layer of the entry arrays. -/
theorem final7 (c : Dev nD) : (dat0 V c).arrAt 7 cfg0.N = H0 V c :=
  (dat0 V c).arrAt_eq_of_cover 7 (H0 V c) (fun t _ => flushed7 V c t) cover7

/-- … and the projection array its projection. -/
theorem final8 (c : Dev nD) : (dat0 V c).arrAt 8 cfg0.N = P0 V c :=
  (dat0 V c).arrAt_eq_of_cover 8 (P0 V c) (fun t _ => flushed8 V c t) cover8

end Cert.KernelIdeal.Blocks0

end
-- ==== Proof.KernelBlocks1.lean ====
/-
  From blocks to the array, second pallas_call: 25 grid points, point t working on rows [4000 t, 4000 t + 4000).

  The neighbour sum of the projection, the hidden layer and the reciprocal degree are read at row 4000 t + p for row p of
  the block; the weight and the bias windows are the whole arrays at every point; the output block, the log-softmax of the
  block's logits row by row, is written back to rows [4000 t, 4000 t + 4000). The 25 blocks tile the 100000 rows, so the
  result array ends as one function of the arrays the call was entered with.
-/
import proofs.«102721_j79405355368448_2_alg».proof.Proof.Gen.KernelIdeal.Frame
import proofs.«102721_j79405355368448_2_alg».proof.Proof.KernelPayload

set_option maxRecDepth 16384

noncomputable section

namespace Cert.KernelIdeal.Blocks1

open Cert.KernelIdeal Cert.KernelIdeal.Gen Cert.KernelIdeal.Payload Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: a row-blocked window's block index is (t, 0), a whole-array window's (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 25 := lt_of_lt_of_eq (show t.val < grid1.N from t.isLt) N_1

/-- Row 4000 t + p of a 100000-row array. -/
abbrev rowOf (t : Fin cfg1.N) (p : Fin 4000) : Fin 100000 := ⟨t.val * 4000 + p.val, by have := t_lt t; have := p.isLt; omega⟩

/-! ## The input blocks read off the entry arrays -/

theorem read0 (c : Dev nD) (t : Fin cfg1.N) (p : Fin 4000) (k : Fin 64) :
    iblk1 V c 0 t (ix2 p k) = V c main_v38 (ix2 (rowOf t p) k) := by
  show V c main_v38 (((cfg1.win 0).blk t).view.emb (ix2 p k)) = _
  refine congrArg (V c main_v38) (funext fun a => Fin.ext ?_)
  obtain ⟨e0, e1, -⟩ := idx1 t
  match a with
  | ⟨0, _⟩ => show win1_0.index t (0 : Fin 2) * 4000 + 1 * p.val = t.val * 4000 + p.val; rw [e0]; omega
  | ⟨1, _⟩ => show win1_0.index t (1 : Fin 2) * 64 + 1 * k.val = k.val; rw [e1]; omega

theorem read1 (c : Dev nD) (t : Fin cfg1.N) (p : Fin 4000) (k : Fin 128) :
    iblk1 V c 1 t (ix2 p k) = V c main_v28_0 (ix2 (rowOf t p) k) := by
  show V c main_v28_0 (((cfg1.win 1).blk t).view.emb (ix2 p k)) = _
  refine congrArg (V c main_v28_0) (funext fun a => Fin.ext ?_)
  obtain ⟨-, -, e0, e1, -⟩ := idx1 t
  match a with
  | ⟨0, _⟩ => show win1_1.index t (0 : Fin 2) * 4000 + 1 * p.val = t.val * 4000 + p.val; rw [e0]; omega
  | ⟨1, _⟩ => show win1_1.index t (1 : Fin 2) * 128 + 1 * k.val = k.val; rw [e1]; omega

theorem read2 (c : Dev nD) (t : Fin cfg1.N) (p : Fin 4000) (u : Fin 1) :
    iblk1 V c 2 t (ix2 p u) = V c main_v12 (ix2 (rowOf t p) u) := by
  show V c main_v12 (((cfg1.win 2).blk t).view.emb (ix2 p u)) = _
  refine congrArg (V c main_v12) (funext fun a => Fin.ext ?_)
  obtain ⟨-, -, -, -, e0, e1, -⟩ := idx1 t
  match a with
  | ⟨0, _⟩ => show win1_2.index t (0 : Fin 2) * 4000 + 1 * p.val = t.val * 4000 + p.val; rw [e0]; omega
  | ⟨1, _⟩ => show win1_2.index t (1 : Fin 2) * 1 + 1 * u.val = u.val; rw [e1]; omega

theorem read3 (c : Dev nD) (t : Fin cfg1.N) (k : Fin 128) (q : Fin 64) :
    iblk1 V c 3 t (ix2 k q) = V c main_v26 (ix2 k q) := by
  show V c main_v26 (((cfg1.win 3).blk t).view.emb (ix2 k q)) = _
  refine congrArg (V c main_v26) (funext fun a => Fin.ext ?_)
  obtain ⟨-, -, -, -, -, -, e0, e1, -⟩ := idx1 t
  match a with
  | ⟨0, _⟩ => show win1_3.index t (0 : Fin 2) * 128 + 1 * k.val = k.val; rw [e0]; omega
  | ⟨1, _⟩ => show win1_3.index t (1 : Fin 2) * 64 + 1 * q.val = q.val; rw [e1]; omega

theorem read4 (c : Dev nD) (t : Fin cfg1.N) (u : Fin 1) (q : Fin 64) :
    iblk1 V c 4 t (ix2 u q) = V c main_v39 (ix2 u q) := by
  show V c main_v39 (((cfg1.win 4).blk t).view.emb (ix2 u q)) = _
  refine congrArg (V c main_v39) (funext fun a => Fin.ext ?_)
  obtain ⟨-, -, -, -, -, -, -, -, e0, e1, -⟩ := idx1 t
  match a with
  | ⟨0, _⟩ => show win1_4.index t (0 : Fin 2) * 1 + 1 * u.val = u.val; rw [e0]; omega
  | ⟨1, _⟩ => show win1_4.index t (1 : Fin 2) * 64 + 1 * q.val = q.val; rw [e1]; omega

/-! ## The output array as a function of the entry arrays -/

/-- The log-softmax of the second layer's logits over the whole array. -/
def O1 (c : Dev nD) : Arr 100000 64 := fun i =>
  lsmAt (fun c' => logitAt (V c main_v38) (V c main_v28_0) (V c main_v12) (V c main_v26) (V c main_v39) (i 0) c') (i 1)

/-- Row p of the output block of point t is row 4000 t + p of the result. -/
theorem oblock (c : Dev nD) (t : Fin cfg1.N) (p : Fin 4000) (q : Fin 64) :
    k1_pay1 (iblk1 V c 2 t) (iblk1 V c 0 t) (iblk1 V c 1 t) (iblk1 V c 3 t) (iblk1 V c 4 t) (ix2 p q)
      = O1 V c (ix2 (rowOf t p) q) := by
  rw [pay1_1_apply]
  show _ = lsmAt (fun c' => logitAt (V c main_v38) (V c main_v28_0) (V c main_v12) (V c main_v26) (V c main_v39) (rowOf t p) c') q
  unfold logitAt
  simp only [read0, read1, read2, read3, read4]

/-- Entry (p, q) of output block t sits at row 4000 t + p. -/
theorem emb5 (t : Fin cfg1.N) (p : Fin 4000) (q : Fin 64) : ((cfg1.win 5).blk t).view.emb (ix2 p q) = ix2 (rowOf t p) q := by
  funext a; apply Fin.ext
  obtain ⟨-, -, -, -, -, -, -, -, -, -, e0, e1⟩ := idx1 t
  match a with
  | ⟨0, _⟩ => show win1_5.index t (0 : Fin 2) * 4000 + 1 * p.val = t.val * 4000 + p.val; rw [e0]; omega
  | ⟨1, _⟩ => show win1_5.index t (1 : Fin 2) * 64 + 1 * q.val = q.val; rw [e1]; omega

/-- What point t writes back to the result array is block t of the result. -/
theorem flushed5 (c : Dev nD) (t : Fin cfg1.N) :
    (dat1 V c).flushed 5 t = ((cfg1.win 5).blk t).view.read (Elt Ideal) (O1 V c) := by
  show (cfg1.win 5).cut (grid1.coords t) ((dat1 V c).after 5 t) = _
  rw [after1_5]
  unfold out1_5
  rw [View.canon_unit_zero hz]
  simp only [View.ld_unit_zero (S := S4000x64) hz, View.ld_unit_zero (S := S4000x128) hz, View.ld_unit_zero (S := S4000x1) hz,
    View.ld_unit_zero (S := S128x64) hz, View.ld_unit_zero (S := S1x64) hz]
  funext j
  obtain ⟨p, q, rfl⟩ : ∃ (p : Fin 4000) (q : Fin 64), j = ix2 p q := ⟨j 0, j 1, eq_ix2 j⟩
  show _ = O1 V c (((cfg1.win 5).blk t).view.emb (ix2 p q))
  rw [emb5]
  exact oblock V c t p q

/-! ## The 25 blocks tile the 100000 rows -/

theorem mem_blk5 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v40).slice (win1_5.rect t)).set ↔ _
  rw [View.set_slice_whole, Rect.mem_set_unit]
  exact Iff.rfl

/-- The point whose block holds row r: r / 4000. -/
abbrev pointOf (r : Nat) (hr : r < 100000) : Fin cfg1.N := ⟨r / 4000, lt_of_lt_of_eq (show r / 4000 < 25 by omega) N_1.symm⟩

theorem cover5 (i : S100000x64.Idx) : ∃ t : Fin cfg1.N, (cfg1.win 5).flush t = true ∧ i ∈ ((cfg1.win 5).blk t).view.set := by
  have h0 : (i 0).val < 100000 := (i 0).isLt
  have h1 : (i 1).val < 64 := (i 1).isLt
  refine ⟨pointOf (i 0).val h0, flush1_5 _, ?_⟩
  rw [mem_blk5]
  obtain ⟨-, -, -, -, -, -, -, -, -, -, e0, e1⟩ := idx1 (pointOf (i 0).val h0)
  intro a
  match a with
  | ⟨0, _⟩ =>
    show win1_5.index (pointOf (i 0).val h0) (0 : Fin 2) * 4000 ≤ (i 0).val ∧ (i 0).val < win1_5.index (pointOf (i 0).val h0) (0 : Fin 2) * 4000 + 4000
    rw [e0]; show (i 0).val / 4000 * 4000 ≤ (i 0).val ∧ (i 0).val < (i 0).val / 4000 * 4000 + 4000; omega
  | ⟨1, _⟩ =>
    show win1_5.index (pointOf (i 0).val h0) (1 : Fin 2) * 64 ≤ (i 1).val ∧ (i 1).val < win1_5.index (pointOf (i 0).val h0) (1 : Fin 2) * 64 + 64
    rw [e1]; omega

/-- After the second call the result array holds the log-softmax of the logits of the entry arrays. -/
theorem final5 (c : Dev nD) : (dat1 V c).arrAt 5 cfg1.N = O1 V c :=
  (dat1 V c).arrAt_eq_of_cover 5 (O1 V c) (fun t _ => flushed5 V c t) cover5

end Cert.KernelIdeal.Blocks1

end
-- ==== Proof.KernelHostDefs.lean ====
/-
  The host-side quantities of the idealized kernel, as functions of the edge array.

  From the edge array [2, 1600000]: the source row of an edge (row 0, with a negative entry shifted up by the node count)
  and its destination row (row 1), each as a column of start indices; the clipped in-degree max(deg, 1), where deg is the
  number of edges landing on a node (a scatter-add of ones from zeros), and its reciprocal as a column; and the
  un-normalised neighbour sum of an array of width 128 or 64: gather the source rows, scatter-add them at the
  destination rows from zeros.
-/
import proofs.«102721_j79405355368448_2_alg».proof.Proof.Gen.KernelIdeal
import Idealize.ShloMosaic.PureOps.Ideal

noncomputable section

namespace Cert.KernelIdeal.HostV

open Cert.KernelIdeal Cert.KernelIdeal.Gen Idealize.ShloMosaic

variable (ei : IVec S2x1600000 32)

/-- Row 0 of the edge array: the edges' source nodes, as read. -/
def srcRaw : IVec S1600000 32 :=
  shapeCast S1600000 (extractStridedSlice S1x1600000 ![0, 0] ei slices_S2x1600000_S1x1600000_0_0) shapeCasts_S1x1600000_S1600000
/-- Row 1 of the edge array: the edges' destination nodes. -/
def dstRaw : IVec S1600000 32 :=
  shapeCast S1600000 (extractStridedSlice S1x1600000 ![1, 0] ei slices_S2x1600000_S1x1600000_1_0) shapeCasts_S1x1600000_S1600000
/-- The destinations as a column of scatter indices. -/
def dstIdx : IVec S1600000x1 32 := broadcastInDim S1600000x1 ![0] bcast_S1600000_S1600000x1_0 (dstRaw ei)
/-- The sources as a column of gather indices, a negative one counted from the end. -/
def srcIdx : IVec S1600000x1 32 :=
  broadcastInDim S1600000x1 ![0] bcast_S1600000_S1600000x1_0
    (select (cmpi .slt (srcRaw ei) (broadcastInDim S1600000 ![] bcast_S_S1600000 (constantI S_ 32 0#32)))
      (addi (srcRaw ei) (broadcastInDim S1600000 ![] bcast_S_S1600000 (constantI S_ 32 100000#32))) (srcRaw ei))

/-- max(deg, 1): ones scattered onto zeros at the destinations, then the maximum with one. -/
def degMax : FVec Ideal S100000 .f32 :=
  maximumf
    (Host.scatterAdd scatter_S100000_S1600000x1_S1600000_n_0_0_1
      (broadcastInDim S100000 ![] bcast_S_S100000 (constant (F := Ideal) S_ .f32 0x00000000#32)) (dstIdx ei)
      (broadcastInDim S1600000 ![] bcast_S_S1600000 (constant (F := Ideal) S_ .f32 0x3F800000#32)))
    (broadcastInDim S100000 ![] bcast_S_S100000 (constant (F := Ideal) S_ .f32 0x3F800000#32))
/-- 1 / max(deg, 1), as a column. -/
def invDeg : FVec Ideal S100000x1 .f32 :=
  shapeCast S100000x1
    (Host.divf (broadcastInDim S100000 ![] bcast_S_S100000 (constant (F := Ideal) S_ .f32 0x3F800000#32)) (degMax ei))
    shapeCasts_S100000_S100000x1

/-- The neighbour sum of a width-128 array. -/
def agg128 (f : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstIdx ei)
    (Host.gather gather_S100000x128_S1600000x1_S1600000x128_1_0_n_n_0_1_1128 f (srcIdx ei))
/-- The neighbour sum of a width-64 array. -/
def agg64 (f : FVec Ideal S100000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32)) (dstIdx ei)
    (Host.gather gather_S100000x64_S1600000x1_S1600000x64_1_0_n_n_0_1_164 f (srcIdx ei))

end Cert.KernelIdeal.HostV

end
-- ==== Proof.KernelHost.lean ====
/-
  WHAT THE HOST OPERATIONS LEAVE IN THE BUFFERS THE TWO CALLS READ.

  Before the first call the host computes, from the edge array, the sources' and destinations' rows, the reciprocal of
  the clipped in-degree, and the neighbour sum of the node features; it transposes the weights and reshapes the first
  bias. Each of the first call's seven input arrays is therefore a closed function of the launch arguments
  (`e0_*`). Between the calls the host gathers and scatter-adds the first call's second output along the same edges
  and reshapes the second bias; the second call's five input arrays are then a function of the launch arguments and of
  the first call's two outputs as that call leaves them (`e1_*`): a buffer no later operation writes keeps its
  contents, an input array of the first call ends as entered, and an output array ends at its folded write-backs.
-/
import proofs.«102721_j79405355368448_2_alg».proof.Proof.Gen.KernelIdeal.Frame
import proofs.«102721_j79405355368448_2_alg».proof.Proof.KernelHostDefs
import Idealize.ShloMosaic.Lib.StableHlo.Run

set_option maxRecDepth 16384

noncomputable section

namespace Cert.KernelIdeal.HostRun

open Cert.KernelIdeal Cert.KernelIdeal.Gen Cert.KernelIdeal.HostV Idealize.ShloMosaic Idealize.ShloMosaic.TcCoe Idealize.SL.Sem

variable (m : (ℓ : Loc nD τ sig) → Buf (Elt Ideal) ℓ) (ρ : Dev nD → PrngReg) (c : Dev nD)

/-! ## The first call's entry arrays -/

/-- The first call's window 1 is the node features themselves: no host operation writes them. -/
theorem e0_x : V1 m ρ c main_arg0 = m ((c : Thread nD τ).loc main_arg0) := by
  show StableHlo.after hostOps0 (W0 m ρ c) (Proc.devRef .tc main_arg0) = _
  after_results_simp

/-- Window 0 of the first call: the un-normalised neighbour sum of the node features — their source rows gathered
    and scatter-added at the destination rows from zeros. -/
theorem e0_agg : (V1 m ρ c main_v22 : S100000x128.Idx → EReal)
    = agg128 (m ((c : Thread nD τ).loc main_arg1)) (m ((c : Thread nD τ).loc main_arg0)) := by
  show StableHlo.after hostOps0 (W0 m ρ c) (Proc.devRef .tc main_v22) = _
  after_results_simp
  unfold agg128 srcIdx dstIdx srcRaw dstRaw
  rfl

/-- Window 2 of the first call: the reciprocal of the clipped in-degree, as a column. -/
theorem e0_inv : (V1 m ρ c main_v12 : S100000x1.Idx → EReal) = invDeg (m ((c : Thread nD τ).loc main_arg1)) := by
  show StableHlo.after hostOps0 (W0 m ρ c) (Proc.devRef .tc main_v12) = _
  after_results_simp
  unfold invDeg degMax dstIdx dstRaw
  rfl

/-- Window 3 of the first call: the first layer's neighbour weight, transposed. -/
theorem e0_w1l : (V1 m ρ c main_v23 : S128x128.Idx → EReal)
    = transpose S128x128 [1, 0] (m ((c : Thread nD τ).loc main_arg2)) transposes_S128x128_S128x128_1_0 := by
  show StableHlo.after hostOps0 (W0 m ρ c) (Proc.devRef .tc main_v23) = _
  after_results_simp

/-- Window 4 of the first call: the first layer's self weight, transposed. -/
theorem e0_w1r : (V1 m ρ c main_v24 : S128x128.Idx → EReal)
    = transpose S128x128 [1, 0] (m ((c : Thread nD τ).loc main_arg4)) transposes_S128x128_S128x128_1_0 := by
  show StableHlo.after hostOps0 (W0 m ρ c) (Proc.devRef .tc main_v24) = _
  after_results_simp

/-- Window 5 of the first call: the first layer's bias, as a row. -/
theorem e0_b1 : (V1 m ρ c main_v27 : S1x128.Idx → EReal)
    = shapeCast S1x128 (m ((c : Thread nD τ).loc main_arg3)) shapeCasts_S128_S1x128 := by
  show StableHlo.after hostOps0 (W0 m ρ c) (Proc.devRef .tc main_v27) = _
  after_results_simp
  rfl

/-- Window 6 of the first call: the second layer's neighbour weight, transposed. -/
theorem e0_w2l : (V1 m ρ c main_v25 : S128x64.Idx → EReal)
    = transpose S128x64 [1, 0] (m ((c : Thread nD τ).loc main_arg5)) transposes_S64x128_S128x64_1_0 := by
  show StableHlo.after hostOps0 (W0 m ρ c) (Proc.devRef .tc main_v25) = _
  after_results_simp

/-! ## The second call's entry arrays

Between the calls: what the first call's exit leaves at the buffers the second stretch of host operations reads. -/

/-- The sources' row, written before the first call and no array of it, is still there at its exit. -/
theorem w2_v1 : (W2 m ρ c (Proc.devRef .tc main_v1) : S1600000.Idx → BitVec 32) = srcRaw (m ((c : Thread nD τ).loc main_arg1)) := by
  refine (W2_of_ne m ρ c main_v1 (by decide)).trans ?_
  show StableHlo.after hostOps0 (W0 m ρ c) (Proc.devRef .tc main_v1) = _
  after_results_simp
  rfl

/-- The destinations' row likewise. -/
theorem w2_v3 : (W2 m ρ c (Proc.devRef .tc main_v3) : S1600000.Idx → BitVec 32) = dstRaw (m ((c : Thread nD τ).loc main_arg1)) := by
  refine (W2_of_ne m ρ c main_v3 (by decide)).trans ?_
  show StableHlo.after hostOps0 (W0 m ρ c) (Proc.devRef .tc main_v3) = _
  after_results_simp
  rfl

/-- Window 0 of the second call: the un-normalised neighbour sum of the first call's second output (the projected
    hidden features, width 64), gathered at the same source rows and scatter-added at the same destination rows. -/
theorem e1_aggp : (V3 m ρ c main_v38 : S100000x64.Idx → EReal)
    = agg64 (m ((c : Thread nD τ).loc main_arg1)) ((dat0 (V1 m ρ) c).arrAt 8 cfg0.N) := by
  show StableHlo.after hostOps1 (W2 m ρ c) (Proc.devRef .tc main_v38) = _
  after_results_simp
  rw [w2_v1, w2_v3, show W2 m ρ c (Proc.devRef .tc main_v28_1) = (dat0 (V1 m ρ) c).arrAt 8 cfg0.N from W2_arr m ρ c 8]
  unfold agg64 srcIdx dstIdx
  rfl

/-- Window 1 of the second call: the first call's first output (the hidden features), as that call leaves it. -/
theorem e1_h : (V3 m ρ c main_v28_0 : S100000x128.Idx → EReal) = (dat0 (V1 m ρ) c).arrAt 7 cfg0.N := by
  show StableHlo.after hostOps1 (W2 m ρ c) (Proc.devRef .tc main_v28_0) = _
  after_results_simp
  exact W2_arr m ρ c 7

/-- Window 2 of the second call: the reciprocal clipped in-degree again — an input of the first call, which ends
    as entered, and no later host operation writes it. -/
theorem e1_inv : (V3 m ρ c main_v12 : S100000x1.Idx → EReal) = invDeg (m ((c : Thread nD τ).loc main_arg1)) := by
  show StableHlo.after hostOps1 (W2 m ρ c) (Proc.devRef .tc main_v12) = _
  after_results_simp
  exact (W2_arr m ρ c 2).trans ((((dat0 (V1 m ρ) c).arrAt_in 2 rfl _).trans (A_eq0 (V1 m ρ) c 2)).trans (e0_inv m ρ c))

/-- Window 3 of the second call: the second layer's self weight, transposed before the first call and untouched
    since. -/
theorem e1_w2r : (V3 m ρ c main_v26 : S128x64.Idx → EReal)
    = transpose S128x64 [1, 0] (m ((c : Thread nD τ).loc main_arg7)) transposes_S64x128_S128x64_1_0 := by
  show StableHlo.after hostOps1 (W2 m ρ c) (Proc.devRef .tc main_v26) = _
  after_results_simp
  refine (W2_of_ne m ρ c main_v26 (by decide)).trans ?_
  show StableHlo.after hostOps0 (W0 m ρ c) (Proc.devRef .tc main_v26) = _
  after_results_simp

/-- Window 4 of the second call: the second layer's bias, as a row. -/
theorem e1_b2 : (V3 m ρ c main_v39 : S1x64.Idx → EReal)
    = shapeCast S1x64 (m ((c : Thread nD τ).loc main_arg6)) shapeCasts_S64_S1x64 := by
  have h6 : W2 m ρ c (Proc.devRef .tc main_arg6) = m ((c : Thread nD τ).loc main_arg6) := by
    refine (W2_of_ne m ρ c main_arg6 (by decide)).trans ?_
    show StableHlo.after hostOps0 (W0 m ρ c) (Proc.devRef .tc main_arg6) = _
    after_results_simp
  show StableHlo.after hostOps1 (W2 m ρ c) (Proc.devRef .tc main_v39) = _
  after_results_simp
  rw [h6]
  rfl

end Cert.KernelIdeal.HostRun

end
-- ==== Proof.KernelLayout.lean ====
/-
  The host's layout operations as the specification's: a transpose with permutation [1, 0] is `tr`, a vector reshaped to
  one row is `asRow`, and the reciprocal-degree column is `invOf` of the clipped degree.
-/
import proofs.«102721_j79405355368448_2_alg».proof.Proof.KernelHostDefs
import proofs.«102721_j79405355368448_2_alg».proof.Proof.KernelPayload
import Idealize.ShloMosaic.Lib.ValueLayout
import Idealize.ShloMosaic.Lib.Pipeline.Value

noncomputable section

namespace Cert.KernelIdeal.Layout

open Cert.KernelIdeal Cert.KernelIdeal.Gen Cert.KernelIdeal.HostV Cert.KernelIdeal.Payload Cert.Sage
open Idealize.ShloMosaic Idealize.ShloMosaic.ValueIdx

theorem transpose128_eq (w : FVec Ideal S128x128 .f32) :
    transpose S128x128 [1, 0] w transposes_S128x128_S128x128_1_0 = tr w := by
  funext i
  obtain ⟨k, c, rfl⟩ : ∃ (k : Fin 128) (c : Fin 128), i = ix2 k c := ⟨i 0, i 1, eq_ix2 i⟩
  exact transpose_apply [1, 0] w transposes_S128x128_S128x128_1_0 (ix2 k c) (ix2 c k) (fun b => match b with
    | ⟨0, _⟩ => rfl
    | ⟨1, _⟩ => rfl)

theorem transpose64_eq (w : FVec Ideal S64x128 .f32) :
    transpose S128x64 [1, 0] w transposes_S64x128_S128x64_1_0 = tr w := by
  funext i
  obtain ⟨k, c, rfl⟩ : ∃ (k : Fin 128) (c : Fin 64), i = ix2 k c := ⟨i 0, i 1, eq_ix2 i⟩
  exact transpose_apply [1, 0] w transposes_S64x128_S128x64_1_0 (ix2 k c) (ix2 c k) (fun b => match b with
    | ⟨0, _⟩ => rfl
    | ⟨1, _⟩ => rfl)

theorem row128_eq (b : FVec Ideal S128 .f32) : shapeCast S1x128 b shapeCasts_S128_S1x128 = asRow b := by
  funext i
  obtain ⟨u, c, rfl⟩ : ∃ (u : Fin 1) (c : Fin 128), i = ix2 u c := ⟨i 0, i 1, eq_ix2 i⟩
  exact shapeCast_a_1a_apply b shapeCasts_S128_S1x128 u c

theorem row64_eq (b : FVec Ideal S64 .f32) : shapeCast S1x64 b shapeCasts_S64_S1x64 = asRow b := by
  funext i
  obtain ⟨u, c, rfl⟩ : ∃ (u : Fin 1) (c : Fin 64), i = ix2 u c := ⟨i 0, i 1, eq_ix2 i⟩
  exact shapeCast_a_1a_apply b shapeCasts_S64_S1x64 u c

/-- The column 1 / D for ANY vector D of clipped degrees. -/
theorem invCol_eq (D : FVec Ideal S100000 .f32) :
    shapeCast S100000x1 (Host.divf (broadcastInDim S100000 ![] bcast_S_S100000 (constant (F := Ideal) S_ .f32 0x3F800000#32)) D)
      shapeCasts_S100000_S100000x1 = invOf D := by
  funext i
  obtain ⟨r, u, rfl⟩ : ∃ (r : Fin 100000) (u : Fin 1), i = ix2 r u := ⟨i 0, i 1, eq_ix2 i⟩
  rw [castCol_apply]
  rfl

/-- The reciprocal-degree column is 1 / max(deg, 1) row by row. -/
theorem inv_eq (ei : IVec S2x1600000 32) : invDeg ei = invOf (degMax ei) := invCol_eq (degMax ei)

end Cert.KernelIdeal.Layout

end
-- ==== Proof.KernelValue.lean ====
/-
  The idealized kernel's result array as one function of its arguments.

  The result buffer ends at what the second call's write-backs leave: the log-softmax of the logits of that call's entry
  arrays. Those are the neighbour sum of the first call's projection, the first call's hidden layer, the reciprocal
  degree, the transposed weight and the bias row; and the first call's two output arrays are the hidden layer and its
  projection of ITS entry arrays: the neighbour sum of the features, the features, the reciprocal degree, two
  transposed weights and a bias row. Substituting gives the kernel's arrangement `kOut` of the eight arguments.
  Each step is an equation between whole arrays, composed by congruence of three array-valued functions.
-/
import proofs.«102721_j79405355368448_2_alg».proof.Proof.KernelRun
import proofs.«102721_j79405355368448_2_alg».proof.Proof.KernelBlocks0
import proofs.«102721_j79405355368448_2_alg».proof.Proof.KernelBlocks1
import proofs.«102721_j79405355368448_2_alg».proof.Proof.KernelHost
import proofs.«102721_j79405355368448_2_alg».proof.Proof.KernelLayout

set_option maxRecDepth 16384

noncomputable section

namespace Cert.KernelIdeal.KValue

open Cert.KernelIdeal Cert.KernelIdeal.Gen Cert.KernelIdeal.HostV Cert.KernelIdeal.HostRun Cert.KernelIdeal.Layout Cert.Sage
open Idealize.ShloMosaic Idealize.ShloMosaic.TcCoe Idealize.ShloMosaic.ValueIdx Idealize.SL.Sem

/-! ## The three layers as functions of whole arrays -/

/-- The hidden layer of six arrays. -/
def hidOf (agg x : Arr 100000 128) (inv : Arr 100000 1) (wl wr : Arr 128 128) (b : Arr 1 128) : Arr 100000 128 :=
  fun i => hiddenAt agg x inv wl wr b (i 0) (i 1)
/-- The projection of a hidden layer. -/
def projOf (h : Arr 100000 128) (w : Arr 128 64) : Arr 100000 64 := fun i => projAt h w (i 0) (i 1)
/-- The log-softmax of the second layer's logits of five arrays. -/
def outOf (aggp : Arr 100000 64) (h : Arr 100000 128) (inv : Arr 100000 1) (wr : Arr 128 64) (b : Arr 1 64) : Arr 100000 64 :=
  fun i => lsmAt (fun c' => logitAt aggp h inv wr b (i 0) c') (i 1)

theorem hidOf_congr {agg agg' x x' : Arr 100000 128} {inv inv' : Arr 100000 1} {wl wl' wr wr' : Arr 128 128} {b b' : Arr 1 128}
    (h1 : agg = agg') (h2 : x = x') (h3 : inv = inv') (h4 : wl = wl') (h5 : wr = wr') (h6 : b = b') :
    hidOf agg x inv wl wr b = hidOf agg' x' inv' wl' wr' b' := by subst h1 h2 h3 h4 h5 h6; rfl
theorem projOf_congr {h h' : Arr 100000 128} {w w' : Arr 128 64} (h1 : h = h') (h2 : w = w') : projOf h w = projOf h' w' := by
  subst h1 h2; rfl
theorem outOf_congr {aggp aggp' : Arr 100000 64} {h h' : Arr 100000 128} {inv inv' : Arr 100000 1} {wr wr' : Arr 128 64} {b b' : Arr 1 64}
    (h1 : aggp = aggp') (h2 : h = h') (h3 : inv = inv') (h4 : wr = wr') (h5 : b = b') :
    outOf aggp h inv wr b = outOf aggp' h' inv' wr' b' := by subst h1 h2 h3 h4 h5; rfl

/-! ## The result -/

variable (m : (ℓ : Loc nD τ sig) → Buf (Elt Ideal) ℓ) (ρ : Dev nD → PrngReg) (c : Dev nD)

/-- After the first call the hidden array is the kernel's hidden layer of the arguments. -/
theorem hidden_arr :
    (dat0 (V1 m ρ) c).arrAt 7 cfg0.N
      = kH (m ((c : Thread nD τ).loc main_arg0)) (degMax (m ((c : Thread nD τ).loc main_arg1))) (agg128 (m ((c : Thread nD τ).loc main_arg1)))
          (m ((c : Thread nD τ).loc main_arg2)) (m ((c : Thread nD τ).loc main_arg4)) (m ((c : Thread nD τ).loc main_arg3)) :=
  (Blocks0.final7 (V1 m ρ) c).trans
    (hidOf_congr (e0_agg m ρ c) (e0_x m ρ c) ((e0_inv m ρ c).trans (inv_eq _)) ((e0_w1l m ρ c).trans (transpose128_eq _))
      ((e0_w1r m ρ c).trans (transpose128_eq _)) ((e0_b1 m ρ c).trans (row128_eq _)))

/-- … and the projection array its projection. -/
theorem proj_arr :
    (dat0 (V1 m ρ) c).arrAt 8 cfg0.N
      = kP (m ((c : Thread nD τ).loc main_arg0)) (degMax (m ((c : Thread nD τ).loc main_arg1))) (agg128 (m ((c : Thread nD τ).loc main_arg1)))
          (m ((c : Thread nD τ).loc main_arg2)) (m ((c : Thread nD τ).loc main_arg4)) (m ((c : Thread nD τ).loc main_arg3))
          (m ((c : Thread nD τ).loc main_arg5)) :=
  (Blocks0.final8 (V1 m ρ) c).trans
    (projOf_congr ((Blocks0.final7 (V1 m ρ) c).symm.trans (hidden_arr m ρ c)) ((e0_w2l m ρ c).trans (transpose64_eq _)))

/-- The result buffer's final contents are the kernel's arrangement of the arguments. -/
theorem kernel_result :
    W4 m ρ c (Proc.devRef .tc main_v40)
      = kOut (m ((c : Thread nD τ).loc main_arg0)) (degMax (m ((c : Thread nD τ).loc main_arg1)))
          (agg128 (m ((c : Thread nD τ).loc main_arg1))) (agg64 (m ((c : Thread nD τ).loc main_arg1)))
          (m ((c : Thread nD τ).loc main_arg2)) (m ((c : Thread nD τ).loc main_arg4)) (m ((c : Thread nD τ).loc main_arg3))
          (m ((c : Thread nD τ).loc main_arg5)) (m ((c : Thread nD τ).loc main_arg7)) (m ((c : Thread nD τ).loc main_arg6)) :=
  ((RunNamed.W4_result m ρ c).trans (Blocks1.final5 (V3 m ρ) c)).trans
    (outOf_congr ((e1_aggp m ρ c).trans (congrArg (agg64 (m ((c : Thread nD τ).loc main_arg1))) (proj_arr m ρ c)))
      ((e1_h m ρ c).trans (hidden_arr m ρ c)) ((e1_inv m ρ c).trans (inv_eq _)) ((e1_w2r m ρ c).trans (transpose64_eq _))
      ((e1_b2 m ρ c).trans (row64_eq _)))

end Cert.KernelIdeal.KValue

end
-- ==== Proof.LibRowOps.lean ====
/-
  WHOLE ROWS OF A MATRIX, GATHERED AND SCATTER-ADDED, READ AT AN INDEX.

  A table `x : [N, C]` and a column of row numbers `idx : [E, 1]`.

  * The gather of whole rows (offset axis 1, collapsed axis 0, start index map [0], slice sizes [1, C], index vector on
    axis 1) has the element `(e, c)` equal to `x` at row `idx[e, 0]` — read as a signed integer and clamped into
    `[0, N − 1]` — and column `c`.
  * The accumulating scatter of whole rows (update window axis 1, inserted window axis 0, scatter-dims-to-operand-dims
    [0], index vector on axis 1) has the element `(n, c)` equal to `x (n, c)` plus the sum, over the updates' rows
    `e` whose row number `idx[e, 0]`, read signed, is exactly `n`, of `upd (e, c)`. A row number outside `[0, N)`
    equals no `n`, so such an update is dropped.

  Everything is stated for arbitrary extents `N`, `E`, `C`; the dimension numbers' side conditions are taken as a
  hypothesis, to be decided at literal extents by whoever applies the lemmas.
-/
import Idealize.ShloMosaic.PureOps.Ideal
import Idealize.ShloMosaic.Lib.ValueIdx

noncomputable section

open scoped BigOperators

namespace RowOps

open Idealize.ShloMosaic Idealize.ShloMosaic.ValueIdx

/-- An axis of a rank-2 shape is axis 0 or axis 1. -/
theorem fin2_cases (a : Fin 2) : a = 0 ∨ a = 1 := by
  rcases a with ⟨v, hv⟩
  interval_cases v
  · exact Or.inl rfl
  · exact Or.inr rfl

/-! ## The gather of whole rows -/

/-- The dimension numbers of a gather of whole rows: operand `[N, C]`, start indices `[E, 1]`, result `[E, C]`;
    the result's axis 1 is the one offset axis, the operand's axis 0 is collapsed and is the axis the start index
    names, a slice is one whole row (`[1, C]`), and the index vector lies along the start indices' axis 1. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` — read as a signed integer and clamped into
    `[0, N − 1]` — and column `c`. On axis 0 the operand coordinate is the clamped start (no batching, the axis is
    collapsed so no offset); on axis 1 the start is 0 (the start index map does not name it) and the offset is the
    result's coordinate on its one offset axis. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherDims N E C wf) x idx (ix2 e c)
      = x (ix2 (⟨min (idx (ix2 e 0)).toInt.toNat (N - 1), by omega⟩ : Fin N) c) := by
  unfold Host.gather
  congr 1
  funext a
  refine Fin.ext ?_
  show (gatherDims N E C wf).start (ix2 e c) idx a + (gatherDims N E C wf).batchCoord (ix2 e c) a
    + (gatherDims N E C wf).offCoord (ix2 e c) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e c) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have hs : (gatherDims N E C wf).start (ix2 e c) idx (1 : Fin 2) = 0 := by
      unfold GatherDims.start
      exact dif_neg (show (1 : Fin 2) ∉ [(0 : Fin 2)] by decide)
    have ho : (gatherDims N E C wf).offCoord (ix2 e c) (1 : Fin 2) = c.val := by
      unfold GatherDims.offCoord
      rw [dif_pos ((GatherDims.mem_sKept _ _).mpr ⟨show (1 : Fin 2) ∉ [(0 : Fin 2)] by decide, List.not_mem_nil⟩)]
      rfl
    rw [hs, ho]
    simp

/-! ## The accumulating scatter of whole rows -/

/-- The dimension numbers of a scatter of whole rows: operand `[N, C]`, scatter indices `[E, 1]`, updates
    `[E, C]`; the updates' axis 1 is the one window axis, the operand's axis 0 is the inserted one and the axis a
    scatter index names, and the index vector lies along the scatter indices' axis 1. -/
abbrev scatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the operand's axis 0 the window of update `(e, c')` starts at the row number `idx[e, 0]`, read signed. -/
theorem scatter_start0 :
    (scatterDims N E C wf).start (ix2 e c') idx (0 : Fin 2) = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e c')
      ⟨List.idxOf (0 : Fin 2) (scatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's axis 1, which no scatter index names, the window starts at 0. -/
theorem scatter_start1 : (scatterDims N E C wf).start (ix2 e c') idx (1 : Fin 2) = 0 := by
  unfold ScatterDims.start
  exact dif_neg (show (1 : Fin 2) ∉ [(0 : Fin 2)] by decide)

/-- On the operand's axis 0, the inserted one, the window coordinate of update `(e, c')` is 0. -/
theorem scatter_window0 : (scatterDims N E C wf).window (ix2 e c') (0 : Fin 2) = 0 := by
  unfold ScatterDims.window
  exact dif_neg (show (0 : Fin 2) ∉ (List.finRange 2).filter (· ∉ [(0 : Fin 2)]) by decide)

/-- On the operand's axis 1 the window coordinate of update `(e, c')` is its column `c'`. -/
theorem scatter_window1 : (scatterDims N E C wf).window (ix2 e c') (1 : Fin 2) = c'.val := by
  unfold ScatterDims.window
  have hm : (1 : Fin 2) ∈ (scatterDims N E C wf).sKept :=
    show (1 : Fin 2) ∈ (List.finRange 2).filter (· ∉ [(0 : Fin 2)]) by decide
  rw [dif_pos hm]
  rfl

/-- WHERE AN UPDATE LANDS: update `(e, c')` lands on operand element `(n, c)` exactly when its row number
    `idx[e, 0]`, read signed, is `n` and its column `c'` is `c`. (The landing index is start plus window coordinate
    on each axis, `(idx[e, 0] + 0, 0 + c')`, kept only when it lies inside the operand.) -/
theorem resultIdx?_rows_iff (n : Fin N) (c : Fin C) :
    (scatterDims N E C wf).resultIdx? (ix2 e c') idx = some (ix2 n c)
      ↔ (idx (ix2 e 0)).toInt = (n.val : Int) ∧ c' = c := by
  unfold ScatterDims.resultIdx?
  constructor
  · intro h
    split at h
    · rename_i hb
      have hf := Option.some.inj h
      have h0 := congrArg Fin.val (congrFun hf (0 : Fin 2))
      have h1 := congrArg Fin.val (congrFun hf (1 : Fin 2))
      have hb0 := hb (0 : Fin 2)
      have hb1 := hb (1 : Fin 2)
      simp only [scatter_start0, scatter_window0, scatter_start1, scatter_window1] at h0 h1 hb0 hb1
      have e0 : ((ix2 n c (0 : Fin 2)) : Nat) = n.val := rfl
      have e1 : ((ix2 n c (1 : Fin 2)) : Nat) = c.val := rfl
      rw [e0] at h0
      rw [e1] at h1
      refine ⟨?_, Fin.ext ?_⟩
      · omega
      · omega
    · exact absurd h (by simp)
  · rintro ⟨h0, rfl⟩
    have hb : ∀ a, 0 ≤ (scatterDims N E C wf).start (ix2 e c') idx a + (scatterDims N E C wf).window (ix2 e c') a
        ∧ (scatterDims N E C wf).start (ix2 e c') idx a + (scatterDims N E C wf).window (ix2 e c') a
          < (⟨2, ![N, C]⟩ : Shape).size a := by
      intro a
      rcases fin2_cases a with rfl | rfl
      · rw [scatter_start0, scatter_window0, h0]
        have := n.isLt
        refine ⟨by omega, ?_⟩
        show (n.val : Int) + ((0 : Nat) : Int) < ((N : Nat) : Int)
        omega
      · rw [scatter_start1, scatter_window1]
        have := c'.isLt
        refine ⟨by omega, ?_⟩
        show (0 : Int) + ((c'.val : Nat) : Int) < ((C : Nat) : Int)
        omega
    rw [dif_pos hb]
    congr 1
    funext a
    refine Fin.ext ?_
    rcases fin2_cases a with rfl | rfl
    · show ((scatterDims N E C wf).start (ix2 e c') idx (0 : Fin 2)
          + (scatterDims N E C wf).window (ix2 e c') (0 : Fin 2)).toNat = n.val
      rw [scatter_start0, scatter_window0, h0]
      omega
    · show ((scatterDims N E C wf).start (ix2 e c') idx (1 : Fin 2)
          + (scatterDims N E C wf).window (ix2 e c') (1 : Fin 2)).toNat = c'.val
      rw [scatter_start1, scatter_window1]
      omega

end ScatterRows

/-- THE ROW SCATTER-ADD READ AT `(n, c)`: the operand's element plus the sum, over the updates' rows `e` whose row
    number `idx[e, 0]` (read signed) is `n`, of the update's element `(e, c)`. The sum over the updates that land on
    `(n, c)` is a sum over all updates `(e, c')` of an `if`; by `resultIdx?_rows_iff` the condition is
    "`idx[e, 0] = n` and `c' = c`", and the inner sum over `c'` keeps the one term `c' = c`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (scatterDims N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  by_cases he : (idx (ix2 e 0)).toInt = (n.val : Int)
  · rw [if_pos he]
    have : ∀ c' : Fin C, (if (scatterDims N E C wf).resultIdx? (ix2 e c') idx = some (ix2 n c) then upd (ix2 e c') else 0)
        = if c' = c then upd (ix2 e c') else 0 := fun c' =>
      if_congr ((resultIdx?_rows_iff wf idx e c' n c).trans ⟨fun h => h.2, fun h => ⟨he, h⟩⟩) rfl rfl
    rw [Finset.sum_congr rfl fun c' _ => this c', Finset.sum_ite_eq' Finset.univ c, if_pos (Finset.mem_univ c)]
  · rw [if_neg he]
    refine Finset.sum_eq_zero fun c' _ => if_neg fun h => he ?_
    exact ((resultIdx?_rows_iff wf idx e c' n c).mp h).1

end RowOps

end
-- ==== Proof.FiniteInputs.lean ====
/-
  WHAT THE PRECONDITION SAYS, AND THAT A CLIPPED DEGREE IS A NONZERO REAL.

  The precondition `finite_inputs` is the conjunction, over the seven float arguments, of "every entry has absolute
  value below +∞" (`jnp.all(jnp.abs(a) < inf)`). At the ideal values an entry is an extended real; its absolute value
  `max x (−x)` is below `⊤` exactly when `x` is neither `⊤` nor `⊥`, that is, when `x` is a real number
  (`real_of_abs_lt_inf`). `real_of_pre` reads the printed predicate back: the result at its one index is 1, so every
  conjunct is 1, so every `all`-reduction is 1, so every compared element is 1.

  A degree count is a scatter that adds the constant 1.0 once per update landing on an element, starting from 0.0: a
  natural number. Its maximum with 1.0 is therefore a real number that is at least 1, in particular nonzero
  (`clipped_count_real`); nothing about the scatter's dimension numbers is used.
-/
import proofs.«102721_j79405355368448_2_alg».proof.Pre_finite_inputs
import proofs.«102721_j79405355368448_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

open scoped BigOperators

namespace Cert.Sage.Finite

open Idealize.ShloMosaic Idealize.ShloMosaic.ValueIdx

/-- The scalar shape has one index. -/
instance : Subsingleton Cert.Pre_finite_inputs.S_.Idx := ⟨fun a b => funext fun d => d.elim0⟩

/-- The f32 pattern `0x7F800000` (all-ones exponent, zero fraction, sign clear) denotes `+∞`. -/
theorem ofBits_inf : Ideal.ofBits .f32 0x7F800000#32 = (⊤ : EReal) := by
  simp [Ideal.ofBits, Ideal.ieee]

/-- The f32 pattern `0x3F800000` (`1.0`) denotes the real `1`. -/
theorem ofBits_one : Ideal.ofBits .f32 0x3F800000#32 = (1 : EReal) := by
  simp [Ideal.ofBits, Ideal.ieee, -EReal.coe_mul]; norm_num

/-- An extended real whose absolute value `max x (−x)` compares below `+∞` is a real number: at `⊤` and at `⊥` the
    absolute value is `⊤`, which is not below `⊤`. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    by_contra hn
    simp [hn] at h
  induction x using EReal.rec with
  | bot => simp at hlt
  | coe r => exact ⟨r, rfl⟩
  | top => simp at hlt

/-- THE PRECONDITION DECODED: under `finite_inputs` every entry of each of the seven float arguments is a real number.
    The predicate's value at its one index is the conjunction `((((((p₀ ∧ p₂) ∧ p₃) ∧ p₄) ∧ p₅) ∧ p₆) ∧ p₇)` of the
    arguments' `all`-reductions; a conjunction of bits that is 1 has every conjunct 1, a reduction by `and` into one
    index that is 1 met only 1s, and a compared element that is 1 says `|x| < +∞`. -/
theorem real_of_pre [Cert.Pre_finite_inputs.Facts]
    (a0 : FVec Ideal Cert.Pre_finite_inputs.S100000x128 .f32) (a1 : IVec Cert.Pre_finite_inputs.S2x1600000 32)
    (a2 : FVec Ideal Cert.Pre_finite_inputs.S128x128 .f32) (a3 : FVec Ideal Cert.Pre_finite_inputs.S128 .f32)
    (a4 : FVec Ideal Cert.Pre_finite_inputs.S128x128 .f32) (a5 : FVec Ideal Cert.Pre_finite_inputs.S64x128 .f32)
    (a6 : FVec Ideal Cert.Pre_finite_inputs.S64 .f32) (a7 : FVec Ideal Cert.Pre_finite_inputs.S64x128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) := by
  have e := congrFun h ix0
  dsimp only [Cert.Pre_finite_inputs.fn, Cert.Pre_finite_inputs.fn_part1] at e
  simp only [andi, IntOp.andi_eq_one] at e
  obtain ⟨⟨⟨⟨⟨⟨h0, h2⟩, h3⟩, h4⟩, h5⟩, h6⟩, h7⟩ := e
  refine ⟨fun i => ?_, fun i => ?_, fun i => ?_, fun i => ?_, fun i => ?_, fun i => ?_, fun i => ?_⟩
  · exact real_of_abs_lt_inf _ (Host.reduce_andi_all _ _ _ _ ix0 h0 i)
  · exact real_of_abs_lt_inf _ (Host.reduce_andi_all _ _ _ _ ix0 h2 i)
  · exact real_of_abs_lt_inf _ (Host.reduce_andi_all _ _ _ _ ix0 h3 i)
  · exact real_of_abs_lt_inf _ (Host.reduce_andi_all _ _ _ _ ix0 h4 i)
  · exact real_of_abs_lt_inf _ (Host.reduce_andi_all _ _ _ _ ix0 h5 i)
  · exact real_of_abs_lt_inf _ (Host.reduce_andi_all _ _ _ _ ix0 h6 i)
  · exact real_of_abs_lt_inf _ (Host.reduce_andi_all _ _ _ _ ix0 h7 i)

/-- A sum of ones over a finite set is the set's cardinality, as a real number inside the extended reals. -/
theorem sum_one_eq_card {ι : Type*} (S : Finset ι) : ∑ _j ∈ S, (1 : EReal) = ((S.card : ℝ) : EReal) := by
  classical
  induction S using Finset.induction_on with
  | empty => simp
  | insert a S ha ih =>
    rw [Finset.sum_insert ha, ih, Finset.card_insert_of_notMem ha, Nat.cast_succ, EReal.coe_add, EReal.coe_one, add_comm]

/-- A CLIPPED COUNT IS A NONZERO REAL: the accumulating scatter of the constant `1.0` into the constant `0.0` has at
    each element the number `k` of updates landing there, and `max k 1` is a real number that is at least 1. Generic
    in the scatter's dimension numbers and in the indices. -/
theorem clipped_count_real {s si su : Shape} {w : Nat} (d : ScatterDims s si su) (idx : IVec si w) (i : s.Idx) :
    ∃ r : ℝ, r ≠ 0 ∧ max (Ideal.hostScatterAdd d (fun _ => Ideal.ofBits .f32 0x00000000#32) idx
        (fun _ => Ideal.ofBits .f32 0x3F800000#32) i) (Ideal.ofBits .f32 0x3F800000#32) = (r : EReal) := by
  obtain ⟨k, hk⟩ : ∃ k : ℕ, Ideal.hostScatterAdd d (fun _ => Ideal.ofBits .f32 0x00000000#32) idx
      (fun _ => Ideal.ofBits .f32 0x3F800000#32) i = ((k : ℝ) : EReal) := by
    unfold Ideal.hostScatterAdd
    rw [Ideal.ofBits_zero_f32, ofBits_one, zero_add, sum_one_eq_card]
    exact ⟨_, rfl⟩
  rw [hk, ofBits_one]
  refine ⟨max (k : ℝ) 1, ?_, ?_⟩
  · have h1 : (1 : ℝ) ≤ max (k : ℝ) 1 := le_max_right _ _
    intro h0
    rw [h0] at h1
    norm_num at h1
  · exact (EReal.coe_strictMono.monotone.map_max (a := (k : ℝ)) (b := 1)).symm

end Cert.Sage.Finite

end
-- ==== Proof.KernelAgg.lean ====
/-
  The kernel's neighbour sums as sums over the edges, and its clipped degree as a nonzero real.

  An edge e lands on node r when its destination entry, read as a signed integer, is r; its source row is its source entry
  clamped into [0, 99999]. Row r of the neighbour sum of an array f, at either width, is 0.0 plus the sum over the edges
  landing on r of row (src e) of f: the scatter-add adds update row e onto operand row dst e, and the gathered update row e
  is row src e of f. The clipped degree is 0.0 plus a count of ones, raised to at least one: a real that is not zero.
-/
import proofs.«102721_j79405355368448_2_alg».proof.Proof.KernelHostDefs
import proofs.«102721_j79405355368448_2_alg».proof.Proof.LibRowOps
import proofs.«102721_j79405355368448_2_alg».proof.Proof.FiniteInputs
import proofs.«102721_j79405355368448_2_alg».proof.Proof.Spec
import Idealize.ShloMosaic.Lib.ValueIdx

noncomputable section

namespace Cert.KernelIdeal.Agg

open Cert.KernelIdeal Cert.KernelIdeal.Gen Cert.KernelIdeal.HostV Cert.Sage
open Idealize.ShloMosaic Idealize.ShloMosaic.ValueIdx

/-! ## Small equations, each over variables -/

/-- The host's accumulating scatter at the ideal values is the exact sum. -/
theorem scatterAdd_eq {s si su : Shape} {w : Nat} (d : ScatterDims s si su) (x : FVec Ideal s .f32) (idx : IVec si w) (upd : FVec Ideal su .f32) :
    Host.scatterAdd d x idx upd = Ideal.hostScatterAdd d x idx upd := rfl

/-- A broadcast scalar constant is the constant function. -/
theorem bcast_const {t : Shape} (h : S_.BroadcastsInDim t ![]) (b : BitVec FTy.f32.bits) :
    (broadcastInDim t ![] h (constant (F := Ideal) S_ .f32 b) : t.Idx → EReal) = fun _ => Ideal.ofBits .f32 b := rfl

theorem scatter128_eq : scatter_S100000x128_S1600000x1_S1600000x128_1_0_0_1
    = RowOps.scatterDims 100000 1600000 128 scatter_S100000x128_S1600000x1_S1600000x128_1_0_0_1_wf := rfl
theorem gather128_eq : gather_S100000x128_S1600000x1_S1600000x128_1_0_n_n_0_1_1128
    = RowOps.gatherDims 100000 1600000 128 gather_S100000x128_S1600000x1_S1600000x128_1_0_n_n_0_1_1128_wf := rfl
theorem scatter64_eq : scatter_S100000x64_S1600000x1_S1600000x64_1_0_0_1
    = RowOps.scatterDims 100000 1600000 64 scatter_S100000x64_S1600000x1_S1600000x64_1_0_0_1_wf := rfl
theorem gather64_eq : gather_S100000x64_S1600000x1_S1600000x64_1_0_n_n_0_1_164
    = RowOps.gatherDims 100000 1600000 64 gather_S100000x64_S1600000x1_S1600000x64_1_0_n_n_0_1_164_wf := rfl

/-- The source row an index column names for edge e, clamped into the array. -/
def srcOf (si : IVec S1600000x1 32) (e : Fin 1600000) : Fin 100000 :=
  ⟨min (si (ix2 e 0)).toInt.toNat (100000 - 1), by omega⟩

/-- Gather then scatter-add from zeros, width 128, for ANY two index columns: row r is 0.0 plus the sum over the edges
    whose destination entry is r of the row their source entry names. -/
theorem rows128 (di si : IVec S1600000x1 32) (f : Arr 100000 128) (r : Fin 100000) (c : Fin 128) :
    Host.scatterAdd scatter_S100000x128_S1600000x1_S1600000x128_1_0_0_1
        (broadcastInDim S100000x128 ![] bcast_S_S100000x128 (constant (F := Ideal) S_ .f32 0x00000000#32)) di
        (Host.gather gather_S100000x128_S1600000x1_S1600000x128_1_0_n_n_0_1_1128 f si) (ix2 r c)
      = zeroF + ∑ e : Fin 1600000, if (di (ix2 e 0)).toInt = (r.val : Int) then f (ix2 (srcOf si e) c) else 0 := by
  rw [scatterAdd_eq, scatter128_eq, gather128_eq, bcast_const, RowOps.scatterAdd_rows_apply]
  refine congrArg (fun s => zeroF + s) (Finset.sum_congr rfl fun e _ => ?_)
  rw [RowOps.gather_rows_apply (by decide)]
  rfl

/-- The same at width 64. -/
theorem rows64 (di si : IVec S1600000x1 32) (f : Arr 100000 64) (r : Fin 100000) (c : Fin 64) :
    Host.scatterAdd scatter_S100000x64_S1600000x1_S1600000x64_1_0_0_1
        (broadcastInDim S100000x64 ![] bcast_S_S100000x64 (constant (F := Ideal) S_ .f32 0x00000000#32)) di
        (Host.gather gather_S100000x64_S1600000x1_S1600000x64_1_0_n_n_0_1_164 f si) (ix2 r c)
      = zeroF + ∑ e : Fin 1600000, if (di (ix2 e 0)).toInt = (r.val : Int) then f (ix2 (srcOf si e) c) else 0 := by
  rw [scatterAdd_eq, scatter64_eq, gather64_eq, bcast_const, RowOps.scatterAdd_rows_apply]
  refine congrArg (fun s => zeroF + s) (Finset.sum_congr rfl fun e _ => ?_)
  rw [RowOps.gather_rows_apply (by decide)]
  rfl

/-- Ones scattered onto zeros and raised to at least one, for ANY index column: a real that is not zero. -/
theorem clipped (di : IVec S1600000x1 32) (r : Fin 100000) :
    ∃ d : ℝ, d ≠ 0 ∧ maximumf
        (Host.scatterAdd scatter_S100000_S1600000x1_S1600000_n_0_0_1
          (broadcastInDim S100000 ![] bcast_S_S100000 (constant (F := Ideal) S_ .f32 0x00000000#32)) di
          (broadcastInDim S1600000 ![] bcast_S_S1600000 (constant (F := Ideal) S_ .f32 0x3F800000#32)))
        (broadcastInDim S100000 ![] bcast_S_S100000 (constant (F := Ideal) S_ .f32 0x3F800000#32)) (ix1 r) = (d : EReal) := by
  obtain ⟨d, hd0, hd⟩ := Cert.Sage.Finite.clipped_count_real scatter_S100000_S1600000x1_S1600000_n_0_0_1 di (ix1 r)
  refine ⟨d, hd0, ?_⟩
  rw [maximumf_apply, scatterAdd_eq, bcast_const, bcast_const, bcast_const]
  exact hd

/-! ## At the kernel's own index columns -/

variable (ei : IVec S2x1600000 32)

/-- Edge e lands on node r. -/
abbrev lands (r : Fin 100000) (e : Fin 1600000) : Prop := (dstIdx ei (ix2 e 0)).toInt = (r.val : Int)

/-- The source row of edge e. -/
abbrev src (e : Fin 1600000) : Fin 100000 := srcOf (srcIdx ei) e

theorem agg128_rows (f : Arr 100000 128) (r : Fin 100000) (c : Fin 128) :
    agg128 ei f (ix2 r c) = zeroF + ∑ e : Fin 1600000, if lands ei r e then f (ix2 (src ei e) c) else 0 :=
  rows128 (dstIdx ei) (srcIdx ei) f r c

theorem agg64_rows (f : Arr 100000 64) (r : Fin 100000) (c : Fin 64) :
    agg64 ei f (ix2 r c) = zeroF + ∑ e : Fin 1600000, if lands ei r e then f (ix2 (src ei e) c) else 0 :=
  rows64 (dstIdx ei) (srcIdx ei) f r c

/-- The clipped degree of a node is a real number other than zero. -/
theorem degMax_real (r : Fin 100000) : ∃ d : ℝ, d ≠ 0 ∧ degMax ei (ix1 r) = (d : EReal) :=
  clipped (dstIdx ei) r

end Cert.KernelIdeal.Agg

end
-- ==== Proof.RefHostDefs.lean ====
/-
  The host-side quantities of the idealized reference, as functions of the edge array.

  From the edge array [2, 1600000]: the source row of an edge (row 0, with a negative entry shifted up by the node count)
  and its destination row (row 1), each as a column of start indices; the clipped in-degree max(deg, 1), where deg is the
  number of edges landing on a node (a scatter-add of ones from zeros), and its reciprocal as a column; and the
  un-normalised neighbour sum of an array of width 128: gather the source rows, scatter-add them at the destination
  rows from zeros. (The reference recomputes the degree and the index columns for each layer; the terms are the same.)
-/
import proofs.«102721_j79405355368448_2_alg».proof.Proof.Gen.ReferenceIdeal
import Idealize.ShloMosaic.PureOps.Ideal

noncomputable section

namespace Cert.ReferenceIdeal.HostV

open Cert.ReferenceIdeal Cert.ReferenceIdeal.Gen Idealize.ShloMosaic

variable (ei : IVec S2x1600000 32)

/-- Row 0 of the edge array: the edges' source nodes, as read. -/
def srcRaw : IVec S1600000 32 :=
  shapeCast S1600000 (extractStridedSlice S1x1600000 ![0, 0] ei slices_S2x1600000_S1x1600000_0_0) shapeCasts_S1x1600000_S1600000
/-- Row 1 of the edge array: the edges' destination nodes. -/
def dstRaw : IVec S1600000 32 :=
  shapeCast S1600000 (extractStridedSlice S1x1600000 ![1, 0] ei slices_S2x1600000_S1x1600000_1_0) shapeCasts_S1x1600000_S1600000
/-- The destinations as a column of scatter indices. -/
def dstIdx : IVec S1600000x1 32 := broadcastInDim S1600000x1 ![0] bcast_S1600000_S1600000x1_0 (dstRaw ei)
/-- The sources as a column of gather indices, a negative one counted from the end. -/
def srcIdx : IVec S1600000x1 32 :=
  broadcastInDim S1600000x1 ![0] bcast_S1600000_S1600000x1_0
    (select (cmpi .slt (srcRaw ei) (broadcastInDim S1600000 ![] bcast_S_S1600000 (constantI S_ 32 0#32)))
      (addi (srcRaw ei) (broadcastInDim S1600000 ![] bcast_S_S1600000 (constantI S_ 32 100000#32))) (srcRaw ei))

/-- max(deg, 1): ones scattered onto zeros at the destinations, then the maximum with one. -/
def degMax : FVec Ideal S100000 .f32 :=
  maximumf
    (Host.scatterAdd scatter_S100000_S1600000x1_S1600000_n_0_0_1
      (broadcastInDim S100000 ![] bcast_S_S100000 (constant (F := Ideal) S_ .f32 0x00000000#32)) (dstIdx ei)
      (broadcastInDim S1600000 ![] bcast_S_S1600000 (constant (F := Ideal) S_ .f32 0x3F800000#32)))
    (broadcastInDim S100000 ![] bcast_S_S100000 (constant (F := Ideal) S_ .f32 0x3F800000#32))
/-- The neighbour sum of a width-128 array. -/
def agg128 (f : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstIdx ei)
    (Host.gather gather_S100000x128_S1600000x1_S1600000x128_1_0_n_n_0_1_1128 f (srcIdx ei))
end Cert.ReferenceIdeal.HostV

end
-- ==== Proof.RefValue.lean ====
/-
  The idealized reference program, read index by index, computes the function rOut of the specification.

  The reference's operations are read one at a time (each value as a function of the operands at an index), down to
  the stages that are kept as opaque terms: the neighbour sum (a gather of the source rows followed by a scatter-add at
  the destination rows) and the clipped in-degree, both functions of the edge array. Three layers: the hidden layer is
  relu((agg x / deg) · W1lᵀ + b1 + x · W1rᵀ); the logits are (agg h / deg) · W2lᵀ + b2 + h · W2rᵀ; and the log-softmax of
  a row z is (z − M) − log(0 + Σ exp(z − M)) with M = max(−∞, max over the row started from −∞).
-/
import proofs.«102721_j79405355368448_2_alg».proof.Proof.RefReadP
import proofs.«102721_j79405355368448_2_alg».proof.Proof.RefHostDefs
import proofs.«102721_j79405355368448_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Cert.ReferenceIdeal.HostV Cert.Sage
  Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S64x128, .f32⟩ : BufTy).Contents (Elt Ideal))
  (x6 : (⟨S64, .f32⟩ : BufTy).Contents (Elt Ideal)) (x7 : (⟨S64x128, .f32⟩ : BufTy).Contents (Elt Ideal))

/-! ## The stages kept opaque: the neighbour sum and the clipped degree, each computed once per layer -/

/-- The first layer's gather and scatter-add are the neighbour sum of the node features. -/
theorem v13_eq : val_main_v13 (F := Ideal) x0 x1 = agg128 x1 x0 := rfl
/-- The first layer's degree. -/
theorem v19_eq : val_main_v19 (F := Ideal) x1 = degMax x1 := rfl
/-- The second layer's gather and scatter-add are the neighbour sum of the hidden layer. -/
theorem v41_eq : val_main_v41 (F := Ideal) x0 x1 x2 x3 x4 = agg128 x1 (val_main_v31 (F := Ideal) x0 x1 x2 x3 x4) := rfl
/-- The second layer's degree is the same term. -/
theorem v47_eq : val_main_v47 (F := Ideal) x1 = degMax x1 := rfl

/-! ## Layer 1: the hidden layer -/

/-- The divisor, broadcast [100000] → [100000, 1] → [100000, 128], read at (r, k): the clipped degree of row r. -/
theorem v21_at (r : Fin 100000) (k : Fin 128) : val_main_v21 (F := Ideal) x1 (ix2 r k) = degMax x1 (ix1 r) := by
  rw [val_main_v21_apply, val_main_v20_apply, v19_eq]
  exact congrArg (degMax x1) (funext fun a => Fin.ext (by match a with | ⟨0, _⟩ => rfl))

/-- The normalised neighbour sum at (r, k). -/
theorem v22_at (r : Fin 100000) (k : Fin 128) :
    val_main_v22 (F := Ideal) x0 x1 (ix2 r k) = Ideal.div (agg128 x1 x0 (ix2 r k)) (degMax x1 (ix1 r)) := by
  rw [val_main_v22_apply, Ideal.hostDivf_def, v21_at, v13_eq]

/-- The transposed left weights at (k, c). -/
theorem v23_at (k c : Fin 128) : val_main_v23 (F := Ideal) x2 (ix2 k c) = tr x2 (ix2 k c) := by
  rw [val_main_v23_apply]
  exact congrArg x2 (funext fun a => Fin.ext (by match a with | ⟨0, _⟩ => rfl | ⟨1, _⟩ => rfl))

/-- The transposed right weights at (k, c). -/
theorem v28_at (k c : Fin 128) : val_main_v28 (F := Ideal) x4 (ix2 k c) = tr x4 (ix2 k c) := by
  rw [val_main_v28_apply]
  exact congrArg x4 (funext fun a => Fin.ext (by match a with | ⟨0, _⟩ => rfl | ⟨1, _⟩ => rfl))

/-- The product of the normalised neighbour sum with the left weights at (r, c). -/
theorem v24_at (r : Fin 100000) (c : Fin 128) :
    val_main_v24 (F := Ideal) x0 x1 x2 (ix2 r c)
      = ∑ k : Fin 128, Ideal.div (agg128 x1 x0 (ix2 r k)) (degMax x1 (ix1 r)) * tr x2 (ix2 k c) := by
  rw [val_main_v24_apply]
  refine Finset.sum_congr rfl fun k _ => ?_
  have el : lidx_main_v24 (ix2 r c) k = ix2 r k :=
    funext fun a => Fin.ext (by match a with | ⟨0, _⟩ => rfl | ⟨1, _⟩ => rfl)
  have er : ridx_main_v24 (ix2 r c) k = ix2 k c :=
    funext fun a => Fin.ext (by match a with | ⟨0, _⟩ => rfl | ⟨1, _⟩ => rfl)
  rw [el, er, v22_at, v23_at]

/-- The bias, broadcast [128] → [1, 128] → [100000, 128], read at (r, c). -/
theorem v26_at (r : Fin 100000) (c : Fin 128) : val_main_v26 (F := Ideal) x3 (ix2 r c) = x3 (ix1 c) := by
  rw [val_main_v26_apply, val_main_v25_apply]
  exact congrArg x3 (funext fun a => Fin.ext (by match a with | ⟨0, _⟩ => rfl))

/-- The product of the node features with the right weights at (r, c). -/
theorem v29_at (r : Fin 100000) (c : Fin 128) :
    val_main_v29 (F := Ideal) x0 x4 (ix2 r c) = ∑ k : Fin 128, x0 (ix2 r k) * tr x4 (ix2 k c) := by
  rw [val_main_v29_apply]
  refine Finset.sum_congr rfl fun k _ => ?_
  have el : lidx_main_v29 (ix2 r c) k = ix2 r k :=
    funext fun a => Fin.ext (by match a with | ⟨0, _⟩ => rfl | ⟨1, _⟩ => rfl)
  have er : ridx_main_v29 (ix2 r c) k = ix2 k c :=
    funext fun a => Fin.ext (by match a with | ⟨0, _⟩ => rfl | ⟨1, _⟩ => rfl)
  rw [el, er, v28_at]

/-- The hidden layer at (r, c). -/
theorem v31_at (r : Fin 100000) (c : Fin 128) :
    val_main_v31 (F := Ideal) x0 x1 x2 x3 x4 (ix2 r c) = rHiddenAt (agg128 x1 x0) x0 (degMax x1) (tr x2) (tr x4) x3 r c := by
  rw [val_main_v31_apply, val_main_v30_apply, val_main_v27_apply, v24_at, v26_at, v29_at, val_main_call0_v0_apply,
    val_main_call0_cst_apply]
  rfl

/-- The hidden layer is the specification's. -/
theorem v31_eq : val_main_v31 (F := Ideal) x0 x1 x2 x3 x4 = rH x0 (degMax x1) (agg128 x1) x2 x4 x3 := by
  funext i
  obtain ⟨r, c, rfl⟩ : ∃ (r : Fin 100000) (c : Fin 128), i = ix2 r c := ⟨i 0, i 1, eq_ix2 i⟩
  exact v31_at x0 x1 x2 x3 x4 r c

/-! ## Layer 2: the logits -/

/-- The second layer's divisor at (r, k): the same clipped degree. -/
theorem v49_at (r : Fin 100000) (k : Fin 128) : val_main_v49 (F := Ideal) x1 (ix2 r k) = degMax x1 (ix1 r) := by
  rw [val_main_v49_apply, val_main_v48_apply, v47_eq]
  exact congrArg (degMax x1) (funext fun a => Fin.ext (by match a with | ⟨0, _⟩ => rfl))

/-- The normalised neighbour sum of the hidden layer at (r, k). -/
theorem v50_at (r : Fin 100000) (k : Fin 128) :
    val_main_v50 (F := Ideal) x0 x1 x2 x3 x4 (ix2 r k)
      = Ideal.div (agg128 x1 (rH x0 (degMax x1) (agg128 x1) x2 x4 x3) (ix2 r k)) (degMax x1 (ix1 r)) := by
  rw [val_main_v50_apply, Ideal.hostDivf_def, v49_at, v41_eq, v31_eq]

/-- The transposed left weights of the second layer at (k, c). -/
theorem v51_at (k : Fin 128) (c : Fin 64) : val_main_v51 (F := Ideal) x5 (ix2 k c) = tr x5 (ix2 k c) := by
  rw [val_main_v51_apply]
  exact congrArg x5 (funext fun a => Fin.ext (by match a with | ⟨0, _⟩ => rfl | ⟨1, _⟩ => rfl))

/-- The transposed right weights of the second layer at (k, c). -/
theorem v56_at (k : Fin 128) (c : Fin 64) : val_main_v56 (F := Ideal) x7 (ix2 k c) = tr x7 (ix2 k c) := by
  rw [val_main_v56_apply]
  exact congrArg x7 (funext fun a => Fin.ext (by match a with | ⟨0, _⟩ => rfl | ⟨1, _⟩ => rfl))

/-- The product of the normalised neighbour sum of the hidden layer with the left weights at (r, c). -/
theorem v52_at (r : Fin 100000) (c : Fin 64) :
    val_main_v52 (F := Ideal) x0 x1 x2 x3 x4 x5 (ix2 r c)
      = ∑ k : Fin 128, Ideal.div (agg128 x1 (rH x0 (degMax x1) (agg128 x1) x2 x4 x3) (ix2 r k)) (degMax x1 (ix1 r))
          * tr x5 (ix2 k c) := by
  rw [val_main_v52_apply]
  refine Finset.sum_congr rfl fun k _ => ?_
  have el : lidx_main_v52 (ix2 r c) k = ix2 r k :=
    funext fun a => Fin.ext (by match a with | ⟨0, _⟩ => rfl | ⟨1, _⟩ => rfl)
  have er : ridx_main_v52 (ix2 r c) k = ix2 k c :=
    funext fun a => Fin.ext (by match a with | ⟨0, _⟩ => rfl | ⟨1, _⟩ => rfl)
  rw [el, er, v50_at, v51_at]

/-- The second bias, broadcast [64] → [1, 64] → [100000, 64], read at (r, c). -/
theorem v54_at (r : Fin 100000) (c : Fin 64) : val_main_v54 (F := Ideal) x6 (ix2 r c) = x6 (ix1 c) := by
  rw [val_main_v54_apply, val_main_v53_apply]
  exact congrArg x6 (funext fun a => Fin.ext (by match a with | ⟨0, _⟩ => rfl))

/-- The product of the hidden layer with the right weights at (r, c). -/
theorem v57_at (r : Fin 100000) (c : Fin 64) :
    val_main_v57 (F := Ideal) x0 x1 x2 x3 x4 x7 (ix2 r c)
      = ∑ k : Fin 128, rH x0 (degMax x1) (agg128 x1) x2 x4 x3 (ix2 r k) * tr x7 (ix2 k c) := by
  rw [val_main_v57_apply]
  refine Finset.sum_congr rfl fun k _ => ?_
  have el : lidx_main_v57 (ix2 r c) k = ix2 r k :=
    funext fun a => Fin.ext (by match a with | ⟨0, _⟩ => rfl | ⟨1, _⟩ => rfl)
  have er : ridx_main_v57 (ix2 r c) k = ix2 k c :=
    funext fun a => Fin.ext (by match a with | ⟨0, _⟩ => rfl | ⟨1, _⟩ => rfl)
  rw [el, er, v56_at, v31_eq]

/-- The logits at (r, c). -/
theorem v58_at (r : Fin 100000) (c : Fin 64) :
    val_main_v58 (F := Ideal) x0 x1 x2 x3 x4 x5 x6 x7 (ix2 r c)
      = rLogitAt (agg128 x1 (rH x0 (degMax x1) (agg128 x1) x2 x4 x3)) (rH x0 (degMax x1) (agg128 x1) x2 x4 x3) (degMax x1)
          (tr x5) (tr x7) x6 r c := by
  rw [val_main_v58_apply, val_main_v55_apply, v52_at, v54_at, v57_at]
  rfl

/-! ## Layer 3: the log-softmax of a row -/

/-- Column k put back into the reduced index r is (r, k). -/
theorem lift_row (h : S100000x64.Reduces [1] S100000) (r : Fin 100000) (k : Fin (S100000x64.size 1)) :
    h.lift (ix1 r) k = ix2 r (⟨k.val, k.isLt⟩ : Fin 64) := by
  funext c; apply Fin.ext
  fin_cases c <;> rfl

/-- The reduce with a maximum body along a row, started from −∞, is the fold of the maximum over the row. -/
theorem rowMax (x : FVec Ideal S100000x64 .f32) (r : Fin 100000) :
    Host.reduce (u := S_) (FloatOps.maximumf (F := Ideal) (φ := .f32)) x (val_main_call1_cst (F := Ideal))
        reducesTo_S100000x64_S100000_d1 h_S_ (ix1 r)
      = Finset.univ.fold max negInfF (fun k : Fin 64 => x (ix2 r k)) := by
  have h : S100000x64.Reduces [1] S100000 := by decide
  rw [Host.reduce_eq_fold_single FloatOps.maximumf x _ reducesTo_S100000x64_S100000_d1 h h_S_]
  have hf : (x ∘ h.lift (ix1 r)) = fun k : Fin 64 => x (ix2 r k) := funext fun k => congrArg x (lift_row h r k)
  exact congrArg (fun f => Finset.fold max negInfF f (Finset.univ : Finset (Fin 64))) hf

/-- The row maximum, taken once more against −∞, at row r. -/
theorem c1v2_at (r : Fin 100000) :
    val_main_call1_v2 (F := Ideal) x0 x1 x2 x3 x4 x5 x6 x7 (ix1 r)
      = max negInfF (Finset.univ.fold max negInfF (fun k : Fin 64 => val_main_v58 (F := Ideal) x0 x1 x2 x3 x4 x5 x6 x7 (ix2 r k))) := by
  rw [val_main_call1_v2_apply, Ideal.maximumf_def, val_main_call1_v1_apply, val_main_call1_cst_0_apply, Ideal.ofBits_def]
  exact congrArg (max negInfF) (rowMax (val_main_v58 (F := Ideal) x0 x1 x2 x3 x4 x5 x6 x7) r)

/-- The shifted logits at (r, c). -/
theorem c1v5_at (r : Fin 100000) (c : Fin 64) :
    val_main_call1_v5 (F := Ideal) x0 x1 x2 x3 x4 x5 x6 x7 (ix2 r c)
      = val_main_v58 (F := Ideal) x0 x1 x2 x3 x4 x5 x6 x7 (ix2 r c)
        - max negInfF (Finset.univ.fold max negInfF (fun k : Fin 64 => val_main_v58 (F := Ideal) x0 x1 x2 x3 x4 x5 x6 x7 (ix2 r k))) := by
  rw [val_main_call1_v5_apply, Ideal.subf_def, val_main_call1_v4_apply, val_main_call1_v3_apply]
  have e : idx_main_call1_v3 (idx_main_call1_v4 (ix2 r c)) = ix1 r :=
    funext fun a => Fin.ext (by match a with | ⟨0, _⟩ => rfl)
  rw [e, c1v2_at]

/-- The logarithm of the row's sum of exponentials, started from 0, at (r, c). -/
theorem c1v10_at (r : Fin 100000) (c : Fin 64) :
    val_main_call1_v10 (F := Ideal) x0 x1 x2 x3 x4 x5 x6 x7 (ix2 r c)
      = Ideal.log (zeroF + ∑ c' : Fin 64, Ideal.exp (val_main_v58 (F := Ideal) x0 x1 x2 x3 x4 x5 x6 x7 (ix2 r c')
          - max negInfF (Finset.univ.fold max negInfF (fun k : Fin 64 => val_main_v58 (F := Ideal) x0 x1 x2 x3 x4 x5 x6 x7 (ix2 r k))))) := by
  rw [val_main_call1_v10_apply, val_main_call1_v9_apply, Ideal.hostUnary_log_def, val_main_call1_v8_apply]
  have e : idx_main_call1_v8 (idx_main_call1_v10 (ix2 r c)) = ix1 r :=
    funext fun a => Fin.ext (by match a with | ⟨0, _⟩ => rfl)
  rw [e, val_main_call1_v7_apply, val_main_call1_cst_1_apply, Ideal.ofBits_def]
  refine congrArg (fun s => Ideal.log (zeroF + s)) (Finset.sum_congr rfl fun c' _ => ?_)
  have e7 : idx_main_call1_v7 (ix1 r) c' = ix2 r c' :=
    funext fun a => Fin.ext (by match a with | ⟨0, _⟩ => rfl | ⟨1, _⟩ => rfl)
  rw [e7, val_main_call1_v6_apply, Ideal.hostUnary_exp_def, c1v5_at]

/-- The result at (r, c): the reference's log-softmax of the row of logits. -/
theorem v59_at (r : Fin 100000) (c : Fin 64) :
    val_main_v59 (F := Ideal) x0 x1 x2 x3 x4 x5 x6 x7 (ix2 r c)
      = rLsmAt (fun k : Fin 64 => val_main_v58 (F := Ideal) x0 x1 x2 x3 x4 x5 x6 x7 (ix2 r k)) c := by
  rw [val_main_v59_apply, Ideal.subf_def, c1v5_at, c1v10_at]
  rfl

/-! ## The whole result -/

/-- The idealized reference's result is the specification's rOut of its arguments, of the clipped degree and of the
    neighbour sum that the edge array determines. -/
theorem ref_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal)) :
    val_main_v59 (F := Ideal) x0 x1 x2 x3 x4 x5 x6 x7
      = rOut x0 (degMax x1) (agg128 x1) x2 x4 x3 x5 x7 x6 := by
  funext i
  obtain ⟨r, c, rfl⟩ : ∃ (r : Fin 100000) (c : Fin 64), i = ix2 r c := ⟨i 0, i 1, eq_ix2 i⟩
  rw [v59_at]
  have hz : (fun k : Fin 64 => val_main_v58 (F := Ideal) x0 x1 x2 x3 x4 x5 x6 x7 (ix2 r k))
      = fun k : Fin 64 => rLogitAt (agg128 x1 (rH x0 (degMax x1) (agg128 x1) x2 x4 x3)) (rH x0 (degMax x1) (agg128 x1) x2 x4 x3)
          (degMax x1) (tr x5) (tr x7) x6 r k :=
    funext fun k => v58_at x0 x1 x2 x3 x4 x5 x6 x7 r k
  rw [hz]
  rfl

end Cert.ReferenceIdeal.RefValue

end
-- ==== Proof.Bridge.lean ====
/-
  The kernel's arrangement of the two-layer mean-aggregation network and the reference's give the same array,
  whenever every input is a real number and every clipped degree is a nonzero real.

  Layer 1 differs only in spelling: a product with the reciprocal 1/d against a quotient by d, and the order of the
  three summands. Layer 2 differs by the place of the product with W2lᵀ: the kernel multiplies the hidden rows
  first and sums over the neighbours afterwards, the reference sums the hidden rows over the neighbours first.
  The two agree because a finite sum of REAL numbers distributes over products (on the extended reals this fails
  at the infinities), so the hidden layer is first shown to be real-valued. The two log-softmax spellings differ
  by a maximum with −∞ and a sum started from 0.
-/
import proofs.«102721_j79405355368448_2_alg».proof.Proof.Spec
import Idealize.ShloMosaic.PureOps.Ideal.Laws

noncomputable section

namespace Cert.Sage

open Idealize.ShloMosaic Idealize.ShloMosaic.ValueIdx

/-! ## The three constants -/

/-- The word of +0.0 denotes 0. -/
theorem zeroF_eq : zeroF = 0 := Ideal.ofBits_zero_f32

/-- The word of 1.0 denotes 1. -/
theorem oneF_eq : oneF = 1 := by
  simp [Ideal.ofBits, Ideal.ieee, -EReal.coe_mul]; norm_num

/-- The word of −∞ denotes ⊥. -/
theorem negInfF_eq : negInfF = ⊥ := by
  simp [Ideal.ofBits, Ideal.ieee]

/-! ## The coercion ℝ → EReal through finite sums and maxima -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with the maximum. -/
theorem coe_max (a b : ℝ) : ((max a b : ℝ) : EReal) = max (a : EReal) (b : EReal) :=
  EReal.coe_strictMono.monotone.map_max

/-- A neighbour sum of real numbers, started from the constant 0, is the real neighbour sum. -/
theorem nsum_coe {ι : Type*} [Fintype ι] (p : ι → Prop) [∀ e, Decidable (p e)] (g : ι → ℝ) :
    zeroF + ∑ e, (if p e then ((g e : ℝ) : EReal) else 0) = ((∑ e, if p e then g e else 0 : ℝ) : EReal) := by
  rw [zeroF_eq, zero_add, coe_sum]
  refine Finset.sum_congr rfl fun e _ => ?_
  split_ifs <;> simp

/-- Over the reals the product with a row of weights and with a scalar passes through a neighbour sum. -/
theorem real_push {ι : Type*} [Fintype ι] (p : ι → Prop) [∀ e, Decidable (p e)] (Hs : ι → Fin 128 → ℝ)
    (Wc : Fin 128 → ℝ) (t : ℝ) :
    (∑ e, if p e then ∑ k, Hs e k * Wc k else 0) * t = ∑ k, ((∑ e, if p e then Hs e k else 0) * t) * Wc k := by
  have hterm : ∀ e, (if p e then ∑ k, Hs e k * Wc k else 0) * t = ∑ k, ((if p e then Hs e k else 0) * t) * Wc k := by
    intro e
    by_cases h : p e
    · simp only [if_pos h, Finset.sum_mul]
      exact Finset.sum_congr rfl fun k _ => by ring
    · simp only [if_neg h, zero_mul, Finset.sum_const_zero]
  rw [Finset.sum_mul, Finset.sum_congr rfl fun e _ => hterm e, Finset.sum_comm]
  exact Finset.sum_congr rfl fun k _ => by simp only [Finset.sum_mul]

/-! ## Layer 1: the two spellings agree, and the hidden layer is real-valued -/

/-- The reciprocal column at row r is the real number 1/d. -/
theorem invOf_at (dmax : Vec1 100000) (r : Fin 100000) {d : ℝ} (hd : d ≠ 0) (h : dmax (ix1 r) = (d : EReal)) :
    invOf dmax (ix2 r 0) = ((1 / d : ℝ) : EReal) := by
  show Ideal.div oneF (dmax (ix1 r)) = _
  rw [h, Ideal.div_coe hd, oneF_eq, one_mul]

/-- Entry (r, c) of the hidden layer: a product with 1/d is a quotient by d, and the three summands commute. -/
theorem hidden_eq (agg x : Arr 100000 128) (dmax : Vec1 100000) (wl wr : Arr 128 128) (b : Vec1 128)
    (r : Fin 100000) (c : Fin 128) {d : ℝ} (hd : d ≠ 0) (h : dmax (ix1 r) = (d : EReal)) :
    hiddenAt agg x (invOf dmax) wl wr (asRow b) r c = rHiddenAt agg x dmax wl wr b r c := by
  unfold hiddenAt rHiddenAt
  have hb : asRow b (ix2 0 c) = b (ix1 c) := rfl
  rw [invOf_at dmax r hd h, h, hb]
  simp only [Ideal.div_coe hd]
  rw [add_right_comm]

/-- An entry of the hidden layer is real when everything it is computed from is. -/
theorem hiddenAt_real {n : Nat} (agg x : Arr n 128) (inv : Arr n 1) (wl wr : Arr 128 128) (b : Arr 1 128)
    (hagg : ∀ i, ∃ v : ℝ, agg i = (v : EReal)) (hx : ∀ i, ∃ v : ℝ, x i = (v : EReal))
    (hinv : ∀ i, ∃ v : ℝ, inv i = (v : EReal)) (hwl : ∀ i, ∃ v : ℝ, wl i = (v : EReal))
    (hwr : ∀ i, ∃ v : ℝ, wr i = (v : EReal)) (hb : ∀ i, ∃ v : ℝ, b i = (v : EReal))
    (r : Fin n) (c : Fin 128) : ∃ v : ℝ, hiddenAt agg x inv wl wr b r c = (v : EReal) := by
  choose A hA using hagg
  choose X hX using hx
  choose I hI using hinv
  choose WL hWL using hwl
  choose WR hWR using hwr
  choose B hB using hb
  refine ⟨max (((∑ k : Fin 128, (A (ix2 r k) * I (ix2 r 0)) * WL (ix2 k c)) + ∑ k : Fin 128, X (ix2 r k) * WR (ix2 k c))
    + B (ix2 0 c)) 0, ?_⟩
  unfold hiddenAt
  simp only [hA, hX, hI, hWL, hWR, hB, zeroF_eq, coe_max, EReal.coe_add, coe_sum, EReal.coe_mul, EReal.coe_zero]

/-! ## Layer 2: the product with the weights passes through the neighbour sum -/

section Push

variable (agg128 : Arr 100000 128 → Arr 100000 128) (agg64 : Arr 100000 64 → Arr 100000 64)
  (lands : Fin 100000 → Fin 1600000 → Prop) [∀ r e, Decidable (lands r e)] (src : Fin 1600000 → Fin 100000)
  (h128 : ∀ (f : Arr 100000 128) (r : Fin 100000) (c : Fin 128),
      agg128 f (ix2 r c) = zeroF + ∑ e : Fin 1600000, if lands r e then f (ix2 (src e) c) else 0)
  (h64 : ∀ (f : Arr 100000 64) (r : Fin 100000) (c : Fin 64),
      agg64 f (ix2 r c) = zeroF + ∑ e : Fin 1600000, if lands r e then f (ix2 (src e) c) else 0)

include h128 in
/-- The neighbour sum of a real-valued array is real-valued. -/
theorem agg128_real (f : Arr 100000 128) (hf : ∀ i, ∃ v : ℝ, f i = (v : EReal)) (i : (⟨2, ![100000, 128]⟩ : Shape).Idx) :
    ∃ v : ℝ, agg128 f i = (v : EReal) := by
  choose F hF using hf
  obtain ⟨r, c, rfl⟩ : ∃ (r : Fin 100000) (c : Fin 128), i = ix2 r c := ⟨i 0, i 1, eq_ix2 i⟩
  rw [h128]
  simp only [hF]
  exact ⟨_, nsum_coe (fun e => lands r e) (fun e => F (ix2 (src e) c))⟩

include h128 h64 in
/-- Entry (r, c): the scaled neighbour sum of the projected rows h · w is the product of the scaled neighbour sum of the
    rows of h with w, for a real-valued h, real weights and a nonzero real degree. -/
theorem push_down (h : Arr 100000 128) (w : Arr 128 64) (dmax : Vec1 100000)
    (hh : ∀ i, ∃ v : ℝ, h i = (v : EReal)) (hw : ∀ i, ∃ v : ℝ, w i = (v : EReal))
    (r : Fin 100000) (c : Fin 64) {d : ℝ} (hd : d ≠ 0) (hdm : dmax (ix1 r) = (d : EReal)) :
    agg64 (fun i => projAt h w (i 0) (i 1)) (ix2 r c) * invOf dmax (ix2 r 0)
      = ∑ k : Fin 128, Ideal.div (agg128 h (ix2 r k)) (dmax (ix1 r)) * w (ix2 k c) := by
  choose H hH using hh
  choose W hW using hw
  have hp : ∀ e : Fin 1600000, (fun i : (⟨2, ![100000, 64]⟩ : Shape).Idx => projAt h w (i 0) (i 1)) (ix2 (src e) c)
      = ((∑ k : Fin 128, H (ix2 (src e) k) * W (ix2 k c) : ℝ) : EReal) := by
    intro e
    show projAt h w (src e) c = _
    unfold projAt
    simp only [hH, hW, coe_sum, EReal.coe_mul]
  rw [h64, invOf_at dmax r hd hdm, hdm]
  simp only [hp, h128, hH, hW, Ideal.div_coe hd]
  rw [nsum_coe (fun e => lands r e) (fun e => ∑ k : Fin 128, H (ix2 (src e) k) * W (ix2 k c)), ← EReal.coe_mul,
    real_push (fun e => lands r e) (fun e k => H (ix2 (src e) k)) (fun k => W (ix2 k c)) (1 / d), coe_sum]
  refine Finset.sum_congr rfl fun k _ => ?_
  rw [EReal.coe_mul, EReal.coe_mul, nsum_coe (fun e => lands r e) (fun e => H (ix2 (src e) k))]

include h128 h64 in
/-- Entry (r, c) of the second layer before the softmax: the two arrangements agree. -/
theorem logit_eq (h : Arr 100000 128) (wl wr : Arr 128 64) (b : Vec1 64) (dmax : Vec1 100000)
    (hh : ∀ i, ∃ v : ℝ, h i = (v : EReal)) (hw : ∀ i, ∃ v : ℝ, wl i = (v : EReal))
    (r : Fin 100000) (c : Fin 64) {d : ℝ} (hd : d ≠ 0) (hdm : dmax (ix1 r) = (d : EReal)) :
    logitAt (agg64 (fun i => projAt h wl (i 0) (i 1))) h (invOf dmax) wr (asRow b) r c
      = rLogitAt (agg128 h) h dmax wl wr b r c := by
  unfold logitAt rLogitAt
  have hb : asRow b (ix2 0 c) = b (ix1 c) := rfl
  rw [push_down agg128 agg64 lands src h128 h64 h wl dmax hh hw r c hd hdm, hb, add_right_comm]

end Push

/-! ## The two spellings of the log-softmax -/

/-- A maximum with −∞ and a sum started from 0 change nothing. -/
theorem lsm_eq (z : Fin 64 → EReal) (c : Fin 64) : lsmAt z c = rLsmAt z c := by
  unfold lsmAt rLsmAt
  have hm : ∀ y : EReal, max negInfF y = y := fun y => by rw [negInfF_eq]; exact max_eq_right bot_le
  rw [hm, zeroF_eq, zero_add]

/-! ## The whole arrays -/

/-- The kernel's arrangement and the reference's give the same result array on finite inputs with nonzero degrees. -/
theorem kOut_eq_rOut
    (x : Arr 100000 128) (dmax : Vec1 100000)
    (agg128 : Arr 100000 128 → Arr 100000 128) (agg64 : Arr 100000 64 → Arr 100000 64)
    (w1l w1r : Arr 128 128) (b1 : Vec1 128) (w2l w2r : Arr 64 128) (b2 : Vec1 64)
    (lands : Fin 100000 → Fin 1600000 → Prop) [∀ r e, Decidable (lands r e)] (src : Fin 1600000 → Fin 100000)
    (h128 : ∀ (f : Arr 100000 128) (r : Fin 100000) (c : Fin 128),
        agg128 f (ix2 r c) = zeroF + ∑ e : Fin 1600000, if lands r e then f (ix2 (src e) c) else 0)
    (h64 : ∀ (f : Arr 100000 64) (r : Fin 100000) (c : Fin 64),
        agg64 f (ix2 r c) = zeroF + ∑ e : Fin 1600000, if lands r e then f (ix2 (src e) c) else 0)
    (hx : ∀ i, ∃ r : ℝ, x i = (r : EReal))
    (hd : ∀ r : Fin 100000, ∃ d : ℝ, d ≠ 0 ∧ dmax (ix1 r) = (d : EReal))
    (hw1l : ∀ i, ∃ r : ℝ, w1l i = (r : EReal)) (hw1r : ∀ i, ∃ r : ℝ, w1r i = (r : EReal)) (hb1 : ∀ i, ∃ r : ℝ, b1 i = (r : EReal))
    (hw2l : ∀ i, ∃ r : ℝ, w2l i = (r : EReal)) (hw2r : ∀ i, ∃ r : ℝ, w2r i = (r : EReal)) (hb2 : ∀ i, ∃ r : ℝ, b2 i = (r : EReal)) :
    kOut x dmax agg128 agg64 w1l w1r b1 w2l w2r b2 = rOut x dmax agg128 w1l w1r b1 w2l w2r b2 := by
  -- layer 1: the two hidden layers are the same array
  have hH : kH x dmax agg128 w1l w1r b1 = rH x dmax agg128 w1l w1r b1 := by
    funext i
    obtain ⟨r, c, rfl⟩ : ∃ (r : Fin 100000) (c : Fin 128), i = ix2 r c := ⟨i 0, i 1, eq_ix2 i⟩
    obtain ⟨d, hd0, hdr⟩ := hd r
    exact hidden_eq (agg128 x) x dmax (tr w1l) (tr w1r) b1 r c hd0 hdr
  -- the hidden layer is real-valued
  have hinv : ∀ i, ∃ v : ℝ, invOf dmax i = (v : EReal) := by
    intro i
    obtain ⟨r, c, rfl⟩ : ∃ (r : Fin 100000) (c : Fin 1), i = ix2 r c := ⟨i 0, i 1, eq_ix2 i⟩
    obtain ⟨d, hd0, hdr⟩ := hd r
    obtain rfl : c = 0 := Subsingleton.elim _ _
    exact ⟨_, invOf_at dmax r hd0 hdr⟩
  have hHr : ∀ i, ∃ v : ℝ, kH x dmax agg128 w1l w1r b1 i = (v : EReal) := fun i =>
    hiddenAt_real (agg128 x) x (invOf dmax) (tr w1l) (tr w1r) (asRow b1)
      (agg128_real agg128 lands src h128 x hx) hx hinv (fun j => hw1l (ix2 (j 1) (j 0))) (fun j => hw1r (ix2 (j 1) (j 0)))
      (fun j => hb1 (ix1 (j 1))) (i 0) (i 1)
  -- layer 2 and the softmax, entry by entry
  funext i
  obtain ⟨r, c, rfl⟩ : ∃ (r : Fin 100000) (c : Fin 64), i = ix2 r c := ⟨i 0, i 1, eq_ix2 i⟩
  obtain ⟨d, hd0, hdr⟩ := hd r
  unfold kOut rOut
  rw [← hH, lsm_eq]
  congr 1
  funext c'
  exact logit_eq agg128 agg64 lands src h128 h64 (kH x dmax agg128 w1l w1r b1) (tr w2l) (tr w2r) b2 dmax hHr
    (fun j => hw2l (ix2 (j 1) (j 0))) r c' hd0 hdr

end Cert.Sage

end
-- ==== Proof.lean ====
/-
  The certificate: the idealized kernel and the idealized reference compute the same two-layer mean-aggregation
  network on finite inputs.

  Frames. The kernel's two frames (word level and idealized) are the launch of its four segments. The reference has no
  kernel: its frame is its run with the result dropped.
  The idealization rewrote nothing, so it is preserved trivially.
  Values. The kernel's result array is `kOut` of the arguments (the blocks of its two calls tile the arrays, and the host
  operations between them are the neighbour sums); the reference's is `rOut` of the arguments (its operations read one
  index at a time). The two arrangements agree because the neighbour sum is linear and every quantity is a real number
  under the precondition: the inputs are finite, the neighbour sums of reals are reals, and the clipped degree is a real
  that is at least one. The first layers agree entry by entry; in the second layer the kernel multiplies by W2lᵀ before
  the neighbour sum and the reference after it.
-/
import proofs.«102721_j79405355368448_2_alg».proof.Defs
import proofs.«102721_j79405355368448_2_alg».proof.Proof.Gen.Kernel
import proofs.«102721_j79405355368448_2_alg».proof.Proof.Gen.Kernel.Skeleton
import proofs.«102721_j79405355368448_2_alg».proof.Proof.Gen.Kernel.Launch
import proofs.«102721_j79405355368448_2_alg».proof.Proof.Gen.Kernel.Points
import proofs.«102721_j79405355368448_2_alg».proof.Proof.Gen.Kernel.Frame
import proofs.«102721_j79405355368448_2_alg».proof.Proof.Gen.KernelIdeal
import proofs.«102721_j79405355368448_2_alg».proof.Proof.Gen.KernelIdeal.Skeleton
import proofs.«102721_j79405355368448_2_alg».proof.Proof.Gen.KernelIdeal.Launch
import proofs.«102721_j79405355368448_2_alg».proof.Proof.Gen.KernelIdeal.Points
import proofs.«102721_j79405355368448_2_alg».proof.Proof.Gen.KernelIdeal.Frame
import proofs.«102721_j79405355368448_2_alg».proof.Proof.Gen.ReferenceIdeal
import proofs.«102721_j79405355368448_2_alg».proof.Proof.Gen.Pre_finite_inputs
import proofs.«102721_j79405355368448_2_alg».proof.Proof.KernelValue
import proofs.«102721_j79405355368448_2_alg».proof.Proof.KernelAgg
import proofs.«102721_j79405355368448_2_alg».proof.Proof.RefRunP
import proofs.«102721_j79405355368448_2_alg».proof.Proof.RefValue
import proofs.«102721_j79405355368448_2_alg».proof.Proof.Bridge
import proofs.«102721_j79405355368448_2_alg».proof.Proof.FiniteInputs
import Idealize.ShloMosaic.Adequacy
import Idealize.ShloMosaic.Init

noncomputable section

namespace Cert.Proof

open Idealize.ShloMosaic Idealize.SL.Sem Cert.Sage

/-! ## The two programs' host quantities are the same terms -/

theorem degMax_eq (ei : IVec Cert.KernelIdeal.S2x1600000 32) :
    Cert.ReferenceIdeal.HostV.degMax ei = Cert.KernelIdeal.HostV.degMax ei := rfl
theorem agg128_eq (ei : IVec Cert.KernelIdeal.S2x1600000 32) :
    Cert.ReferenceIdeal.HostV.agg128 ei = Cert.KernelIdeal.HostV.agg128 ei := rfl

/-- The reference run's result term is the last stage of its operations. -/
theorem res_eq_val (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v59 (F := Ideal) m c
      = Cert.ReferenceIdeal.ReadP.val_main_v59 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) := by
  unfold Cert.ReferenceIdeal.ValueP.res_main_v59; rfl

/-! ## The two arrangements agree on finite inputs -/

/-- For finite arguments the kernel's arrangement and the reference's are one array. -/
theorem arrangements_agree [Cert.Pre_finite_inputs.Facts]
    (a0 : FVec Ideal Cert.KernelIdeal.S100000x128 .f32) (a1 : IVec Cert.KernelIdeal.S2x1600000 32)
    (a2 : FVec Ideal Cert.KernelIdeal.S128x128 .f32) (a3 : FVec Ideal Cert.KernelIdeal.S128 .f32)
    (a4 : FVec Ideal Cert.KernelIdeal.S128x128 .f32) (a5 : FVec Ideal Cert.KernelIdeal.S64x128 .f32)
    (a6 : FVec Ideal Cert.KernelIdeal.S64 .f32) (a7 : FVec Ideal Cert.KernelIdeal.S64x128 .f32)
    (h : Cert.Pre_finite_inputs.fn (F := Ideal) a0 a1 a2 a3 a4 a5 a6 a7 = fun _ => 1#1) :
    kOut a0 (Cert.KernelIdeal.HostV.degMax a1) (Cert.KernelIdeal.HostV.agg128 a1) (Cert.KernelIdeal.HostV.agg64 a1) a2 a4 a3 a5 a7 a6
      = rOut a0 (Cert.KernelIdeal.HostV.degMax a1) (Cert.KernelIdeal.HostV.agg128 a1) a2 a4 a3 a5 a7 a6 := by
  obtain ⟨h0, h2, h3, h4, h5, h6, h7⟩ := Cert.Sage.Finite.real_of_pre a0 a1 a2 a3 a4 a5 a6 a7 h
  exact kOut_eq_rOut a0 _ _ _ a2 a4 a3 a5 a7 a6 (Cert.KernelIdeal.Agg.lands a1) (Cert.KernelIdeal.Agg.src a1)
    (Cert.KernelIdeal.Agg.agg128_rows a1) (Cert.KernelIdeal.Agg.agg64_rows a1) h0 (Cert.KernelIdeal.Agg.degMax_real a1)
    h2 h4 h3 h5 h7 h6

/-! ## The claims -/

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, (θ_run Cert.KernelIdeal.defs _ _).mono (fun r h c => ⟨(h c).1.trans (Cert.KernelIdeal.KValue.kernel_result m ρ c), (h c).2⟩)
    (Cert.KernelIdeal.RunNamed.run_named (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6, e7⟩ := hagree c
  rw [res_eq_val, e0, e1, e2, e3, e4, e5, e6, e7, Cert.ReferenceIdeal.RefValue.ref_value, degMax_eq, agg128_eq]
  exact (arrangements_agree _ _ _ _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
